-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S800000 : Shape := ⟨1, ![800000]⟩
abbrev S100000x64 : Shape := ⟨2, ![100000, 64]⟩
abbrev S1000x64 : Shape := ⟨2, ![1000, 64]⟩
abbrev S128x128 : Shape := ⟨2, ![128, 128]⟩
abbrev S128 : Shape := ⟨1, ![128]⟩
abbrev S128x200 : Shape := ⟨2, ![128, 200]⟩
abbrev S200 : Shape := ⟨1, ![200]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000x64 : S_.BroadcastsInDim S1000x64 (![] : Fin 0 → Fin S1000x64.rank)
  reducesTo_S1000x64_S_d0_1 : S1000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x200 : S_.BroadcastsInDim S128x200 (![] : Fin 0 → Fin S128x200.rank)
  reducesTo_S128x200_S_d0_1 : S128x200.ReducesTo [0, 1] S_
  bcast_S_S200 : S_.BroadcastsInDim S200 (![] : Fin 0 → Fin S200.rank)
  reducesTo_S200_S_d0 : S200.ReducesTo [0] S_

variable [Facts]

def fn_part3 {F : FTy → Type} [FloatOps F] (main_arg16 : FVec F S200 .f32) (main_v48 : IVec S_ 1) (main_v49 : FVec F S128x200 .f32) (main_v50 : FVec F S128x200 .f32) : IVec S_ 1 :=
  let main_v51 : IVec S128x200 1 := cmpf .olt main_v49 main_v50
  let main_c_19 : IVec S_ 1 := constantI S_ 1 1#1
  let main_v52 : IVec S_ 1 := (fun x v => Host.reduce IntOp.andi x v reducesTo_S128x200_S_d0_1 h_S_) main_v51 main_c_19
  let main_v53 : IVec S_ 1 := andi main_v48 main_v52
  let main_v54 : FVec F S200 .f32 := Host.absf main_arg16
  let main_cst_20 : FVec F S_ .f32 := constant S_ .f32 0x7F800000#32
  let main_v55 : FVec F S200 .f32 := broadcastInDim S200 ![] bcast_S_S200 main_cst_20
  let main_v56 : IVec S200 1 := cmpf .olt main_v54 main_v55
  let main_c_21 : IVec S_ 1 := constantI S_ 1 1#1
  let main_v57 : IVec S_ 1 := (fun x v => Host.reduce IntOp.andi x v reducesTo_S200_S_d0 h_S_) main_v56 main_c_21
  let main_v58 : IVec S_ 1 := andi main_v53 main_v57
  main_v58

def fn_part2 {F : FTy → Type} [FloatOps F] (main_arg12 : FVec F S128 .f32) (main_arg13 : FVec F S128x128 .f32) (main_arg14 : FVec F S128 .f32) (main_arg15 : FVec F S128x200 .f32) (main_arg16 : FVec F S200 .f32) (main_v33 : IVec S_ 1) : IVec S_ 1 :=
  let main_v34 : FVec F S128 .f32 := Host.absf main_arg12
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg13
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg14
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x200 .f32 := Host.absf main_arg15
  let main_cst_18 : FVec F S_ .f32 := constant S_ .f32 0x7F800000#32
  let main_v50 : FVec F S128x200 .f32 := broadcastInDim S128x200 ![] bcast_S_S128x200 main_cst_18
  fn_part3 (F := F) main_arg16 main_v48 main_v49 main_v50

def fn_part1 {F : FTy → Type} [FloatOps F] (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x200 .f32) (main_arg16 : FVec F S200 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg9
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg10
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg11
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg12 main_arg13 main_arg14 main_arg15 main_arg16 main_v33

def fn {F : FTy → Type} [FloatOps F] (main_arg0 : IVec S50000 32) (main_arg1 : IVec S50000 32) (main_arg2 : IVec S800000 32) (main_arg3 : IVec S800000 32) (main_arg4 : IVec S50000 32) (main_arg5 : FVec F S100000x64 .f32) (main_arg6 : FVec F S1000x64 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x200 .f32) (main_arg16 : FVec F S200 .f32) : IVec S_ 1 :=
  let main_v0 : FVec F S100000x64 .f32 := Host.absf main_arg5
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000x64 .f32 := Host.absf main_arg6
  let main_cst_0 : FVec F S_ .f32 := constant S_ .f32 0x7F800000#32
  let main_v5 : FVec F S1000x64 .f32 := broadcastInDim S1000x64 ![] bcast_S_S1000x64 main_cst_0
  let main_v6 : IVec S1000x64 1 := cmpf .olt main_v4 main_v5
  let main_c_1 : IVec S_ 1 := constantI S_ 1 1#1
  let main_v7 : IVec S_ 1 := (fun x v => Host.reduce IntOp.andi x v reducesTo_S1000x64_S_d0_1 h_S_) main_v6 main_c_1
  let main_v8 : IVec S_ 1 := andi main_v3 main_v7
  let main_v9 : FVec F S128x128 .f32 := Host.absf main_arg7
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg8
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg9 main_arg10 main_arg11 main_arg12 main_arg13 main_arg14 main_arg15 main_arg16 main_v13 main_v16
-- ==== Kernel.lean ====
abbrev S50000 : Shape := ⟨1, ![50000]⟩
abbrev S800000 : Shape := ⟨1, ![800000]⟩
abbrev S100000x64 : Shape := ⟨2, ![100000, 64]⟩
abbrev S1000x64 : Shape := ⟨2, ![1000, 64]⟩
abbrev S128x128 : Shape := ⟨2, ![128, 128]⟩
abbrev S128 : Shape := ⟨1, ![128]⟩
abbrev S128x200 : Shape := ⟨2, ![128, 200]⟩
abbrev S200 : Shape := ⟨1, ![200]⟩
abbrev S_ : Shape := ⟨0, ![]⟩
abbrev S50000x1 : Shape := ⟨2, ![50000, 1]⟩
abbrev S50000x64 : Shape := ⟨2, ![50000, 64]⟩
abbrev S50000x128 : Shape := ⟨2, ![50000, 128]⟩
abbrev S800000x1 : Shape := ⟨2, ![800000, 1]⟩
abbrev S800000x128 : Shape := ⟨2, ![800000, 128]⟩
abbrev S5000x128 : Shape := ⟨2, ![5000, 128]⟩
abbrev S1x128 : Shape := ⟨2, ![1, 128]⟩
abbrev S512x128 : Shape := ⟨2, ![512, 128]⟩
abbrev S512x200 : Shape := ⟨2, ![512, 200]⟩
abbrev S1x200 : Shape := ⟨2, ![1, 200]⟩

abbrev nBuf : Space → Nat
  | .hbm => 134
  | .vmem => 26
  | .smem => 0
  | _ => 0

abbrev hbmTy0_0 (i : Nat) : BufTy := match i % 128 with
  | 0 => ⟨S50000, .i32⟩
  | 1 => ⟨S50000, .i32⟩
  | 2 => ⟨S800000, .i32⟩
  | 3 => ⟨S800000, .i32⟩
  | 4 => ⟨S50000, .i32⟩
  | 5 => ⟨S100000x64, .f32⟩
  | 6 => ⟨S1000x64, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x200, .f32⟩
  | 16 => ⟨S200, .f32⟩
  | 17 => ⟨S_, .i32⟩
  | 18 => ⟨S50000, .i32⟩
  | 19 => ⟨S50000, .i1⟩
  | 20 => ⟨S_, .i32⟩
  | 21 => ⟨S50000, .i32⟩
  | 22 => ⟨S50000, .i32⟩
  | 23 => ⟨S50000, .i32⟩
  | 24 => ⟨S50000x1, .i32⟩
  | 25 => ⟨S50000x64, .f32⟩
  | 26 => ⟨S_, .i32⟩
  | 27 => ⟨S50000, .i32⟩
  | 28 => ⟨S50000, .i1⟩
  | 29 => ⟨S_, .i32⟩
  | 30 => ⟨S50000, .i32⟩
  | 31 => ⟨S50000, .i32⟩
  | 32 => ⟨S50000, .i32⟩
  | 33 => ⟨S50000x1, .i32⟩
  | 34 => ⟨S50000x64, .f32⟩
  | 35 => ⟨S50000x128, .f32⟩
  | 36 => ⟨S_, .f32⟩
  | 37 => ⟨S800000, .f32⟩
  | 38 => ⟨S_, .f32⟩
  | 39 => ⟨S50000, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S50000, .f32⟩
  | 49 => ⟨S_, .f32⟩
  | 50 => ⟨S50000, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S50000, .f32⟩
  | 60 => ⟨S_, .f32⟩
  | 61 => ⟨S50000, .f32⟩
  | 62 => ⟨S50000, .f32⟩
  | 63 => ⟨S50000, .f32⟩
  | 64 => ⟨S_, .f32⟩
  | 65 => ⟨S50000, .f32⟩
  | 66 => ⟨S50000, .f32⟩
  | 67 => ⟨S50000, .f32⟩
  | 68 => ⟨S50000x1, .f32⟩
  | 69 => ⟨S50000x128, .f32⟩
  | 70 => ⟨S50000x128, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x128, .f32⟩
  | 80 => ⟨S_, .f32⟩
  | 81 => ⟨S50000x128, .f32⟩
  | 82 => ⟨S800000x1, .i32⟩
  | 83 => ⟨S50000x128, .f32⟩
  | 84 => ⟨S50000x1, .f32⟩
  | 85 => ⟨S50000x128, .f32⟩
  | 86 => ⟨S50000x128, .f32⟩
  | 87 => ⟨S50000x128, .f32⟩
  | 88 => ⟨S50000x1, .f32⟩
  | 89 => ⟨S50000x128, .f32⟩
  | 90 => ⟨S50000x128, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x128, .f32⟩
  | 100 => ⟨S_, .f32⟩
  | 101 => ⟨S50000x128, .f32⟩
  | 102 => ⟨S800000x1, .i32⟩
  | 103 => ⟨S50000x128, .f32⟩
  | 104 => ⟨S50000x1, .f32⟩
  | 105 => ⟨S50000x128, .f32⟩
  | 106 => ⟨S50000x128, .f32⟩
  | 107 => ⟨S50000x128, .f32⟩
  | 108 => ⟨S50000x1, .f32⟩
  | 109 => ⟨S50000x128, .f32⟩
  | 110 => ⟨S50000x128, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x128, .f32⟩
  | 120 => ⟨S_, .f32⟩
  | 121 => ⟨S50000x128, .f32⟩
  | 122 => ⟨S800000x1, .i32⟩
  | 123 => ⟨S50000x128, .f32⟩
  | 124 => ⟨S50000x1, .f32⟩
  | 125 => ⟨S50000x128, .f32⟩
  | 126 => ⟨S50000x128, .f32⟩
  | 127 => ⟨S50000x128, .f32⟩
  | _ => ⟨S50000, .i32⟩

abbrev hbmTy0_1 (i : Nat) : BufTy := match i % 128 with
  | 0 => ⟨S_, .f32⟩
  | 1 => ⟨S512x128, .f32⟩
  | 2 => ⟨S50000x1, .i32⟩
  | 3 => ⟨S512x128, .f32⟩
  | 4 => ⟨S512x128, .f32⟩
  | 5 => ⟨S512x200, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S512x128, .f32⟩
  | .local _ .vmem, ⟨19, _⟩ => ⟨S128x128, .f32⟩
  | .local _ .vmem, ⟨20, _⟩ => ⟨S128, .f32⟩
  | .local _ .vmem, ⟨21, _⟩ => ⟨S512x128, .f32⟩
  | .local _ .vmem, ⟨22, _⟩ => ⟨S512x128, .f32⟩
  | .local _ .vmem, ⟨23, _⟩ => ⟨S128x200, .f32⟩
  | .local _ .vmem, ⟨24, _⟩ => ⟨S200, .f32⟩
  | .local _ .vmem, ⟨25, _⟩ => ⟨S512x200, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst : Ref sig .tc := ⟨.hbm, 36, rfl⟩
abbrev main_v15 : Ref sig .tc := ⟨.hbm, 37, rfl⟩
abbrev main_cst_3 : Ref sig .tc := ⟨.hbm, 38, rfl⟩
abbrev main_v16 : Ref sig .tc := ⟨.hbm, 39, rfl⟩
abbrev main_c_4 : Ref sig .tc := ⟨.hbm, 40, rfl⟩
abbrev main_v17 : Ref sig .tc := ⟨.hbm, 41, rfl⟩
abbrev main_v18 : Ref sig .tc := ⟨.hbm, 42, rfl⟩
abbrev main_c_5 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_6 : Ref sig .tc := ⟨.hbm, 49, rfl⟩
abbrev main_v24 : Ref sig .tc := ⟨.hbm, 50, rfl⟩
abbrev main_c_7 : Ref sig .tc := ⟨.hbm, 51, rfl⟩
abbrev main_v25 : Ref sig .tc := ⟨.hbm, 52, rfl⟩
abbrev main_v26 : Ref sig .tc := ⟨.hbm, 53, rfl⟩
abbrev main_c_8 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_9 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_10 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_c_11 : Ref sig .tc := ⟨.hbm, 71, rfl⟩
abbrev main_v41 : Ref sig .tc := ⟨.hbm, 72, rfl⟩
abbrev main_v42 : Ref sig .tc := ⟨.hbm, 73, rfl⟩
abbrev main_c_12 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_13 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_c_14 : Ref sig .tc := ⟨.hbm, 91, rfl⟩
abbrev main_v58 : Ref sig .tc := ⟨.hbm, 92, rfl⟩
abbrev main_v59 : Ref sig .tc := ⟨.hbm, 93, rfl⟩
abbrev main_c_15 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_16 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_c_17 : Ref sig .tc := ⟨.hbm, 111, rfl⟩
abbrev main_v75 : Ref sig .tc := ⟨.hbm, 112, rfl⟩
abbrev main_v76 : Ref sig .tc := ⟨.hbm, 113, rfl⟩
abbrev main_c_18 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_19 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_20 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg3_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem1_0 : DmaSem sig := 19
abbrev cc3_sem2_0 : DmaSem sig := 20
abbrev cc3_sem3_0 : DmaSem sig := 21
abbrev cc4_sem0_0 : DmaSem sig := 22
abbrev cc4_sem1_0 : DmaSem sig := 23
abbrev cc4_sem2_0 : DmaSem sig := 24
abbrev cc4_sem3_0 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S512x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S512x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S128x200 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S200 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x200 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  concatenates_S50000x64_S50000x64_S50000x128_d1 : Shape.Concatenates [S50000x64, S50000x64] S50000x128 1
  bcast_S_S800000 : S_.BroadcastsInDim S800000 (![] : Fin 0 → Fin S800000.rank)
  bcast_S800000_S800000x1_0 : S800000.BroadcastsInDim S800000x1 (![0] : Fin 1 → Fin S800000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S512x128 : S_.BroadcastsInDim S512x128 (![] : Fin 0 → Fin S512x128.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S512x128 : S1x128.Broadcasts S512x128
  inb_S128x200_S128x200_0_0 : ∀ a, (![0, 0] : Fin 2 → Nat) a + S128x200.size a ≤ S128x200.size a
  h_S128x200 : 0 < S128x200.numel
  inb_S200_S200_0 : ∀ a, (![0] : Fin 1 → Nat) a + S200.size a ≤ S200.size a
  h_S200 : 0 < S200.numel
  shapeCasts_S200_S1x200 : S200.ShapeCasts S1x200
  broadcasts_S1x200_S512x200 : S1x200.Broadcasts S512x200
  inb_S512x200_S512x200_0_0 : ∀ a, (![0, 0] : Fin 2 → Nat) a + S512x200.size a ≤ S512x200.size a
  h_S512x200 : 0 < S512x200.numel
  gather_S100000x64_S50000x1_S50000x64_1_0_n_n_0_1_164_wf : GatherDims.WF S100000x64 S50000x1 S50000x64 [1] [0] [] [0] [] 1 ![1, 64]
  gather_S1000x64_S50000x1_S50000x64_1_0_n_n_0_1_164_wf : GatherDims.WF S1000x64 S50000x1 S50000x64 [1] [0] [] [0] [] 1 ![1, 64]
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S512x128_S50000x1_S50000x128_1_0_0_1_wf : ScatterDims.WF S512x128 S50000x1 S50000x128 [1] [0] [0] 1
  dot_S512x128_S128x128_S512x128_1_0_0_1_n_n_wf : DotDims.WF S512x128 S128x128 S512x128 [1] [0] [0] [1] [] []
  dot_S512x128_S128x200_S512x200_1_0_0_1_n_n_wf : DotDims.WF S512x128 S128x200 S512x200 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S512x128.size a
  hwx3_0 : ∀ i : grid3.Coords, EltTy.bits .f32 = 32 ∨ (Rect.block (s := S512x128) S512x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 1
  hreads3_3 : ∀ i i' : grid3.Coords, (∀ a, reads3_3 a = true → i a = i' a) → cc3_transform_3 i = cc3_transform_3 i'
  hinb3_3 : ∀ (i : grid3.Coords) a, (cc3_transform_3 i a + 1) * S512x128.size a ≤ S512x128.size a
  hwx3_3 : ∀ i : grid3.Coords, EltTy.bits .f32 = 32 ∨ (Rect.block (s := S512x128) S512x128.size (cc3_transform_3 i) (hinb3_3 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S512x128.size a ≤ S512x128.size a
  hwx4_0 : ∀ i : grid4.Coords, EltTy.bits .f32 = 32 ∨ (Rect.block (s := S512x128) S512x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x200.size a ≤ S128x200.size a
  hwx4_1 : ∀ i : grid4.Coords, EltTy.bits .f32 = 32 ∨ (Rect.block (s := S128x200) S128x200.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S200.size a ≤ S200.size a
  hwx4_2 : ∀ i : grid4.Coords, EltTy.bits .f32 = 32 ∨ (Rect.block (s := S200) S200.size (cc4_transform_2 i) (hinb4_2 i)).WholeWords (EltTy.packing .f32)
  hstage4_3 : ∀ j, (stage4_3 j).IsWhole
  nbuf4_3 : grid4.bufCount reads4_3 false = 1
  hreads4_3 : ∀ i i' : grid4.Coords, (∀ a, reads4_3 a = true → i a = i' a) → cc4_transform_3 i = cc4_transform_3 i'
  hinb4_3 : ∀ (i : grid4.Coords) a, (cc4_transform_3 i a + 1) * S512x200.size a ≤ S512x200.size a
  hwx4_3 : ∀ i : grid4.Coords, EltTy.bits .f32 = 32 ∨ (Rect.block (s := S512x200) S512x200.size (cc4_transform_3 i) (hinb4_3 i)).WholeWords (EltTy.packing .f32)

variable [Facts₀]

def gather_S100000x64_S50000x1_S50000x64_1_0_n_n_0_1_164 : GatherDims S100000x64 S50000x1 S50000x64 where
  offsetDims := [1]
  collapsedSliceDims := [0]
  operandBatchingDims := []
  startIndicesBatchingDims := []
  startIndexMap := [0]
  indexVectorDim := 1
  sliceSizes := ![1, 64]
  wf := gather_S100000x64_S50000x1_S50000x64_1_0_n_n_0_1_164_wf
def gather_S1000x64_S50000x1_S50000x64_1_0_n_n_0_1_164 : GatherDims S1000x64 S50000x1 S50000x64 where
  offsetDims := [1]
  collapsedSliceDims := [0]
  operandBatchingDims := []
  startIndicesBatchingDims := []
  startIndexMap := [0]
  indexVectorDim := 1
  sliceSizes := ![1, 64]
  wf := gather_S1000x64_S50000x1_S50000x64_1_0_n_n_0_1_164_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x200_S512x200_1_0_0_1_n_n : DotDims S512x128 S128x200 S512x200 where
  lhsContracting := [1]
  rhsContracting := [0]
  lhsNonContracting := [0]
  rhsNonContracting := [1]
  lhsBatch := []
  rhsBatch := []
  wf := dot_S512x128_S128x200_S512x200_1_0_0_1_n_n_wf

abbrev win0_0 : Pipeline.Window sig grid0 :=
  Pipeline.Window.ofSpec (Memref.whole main_v53) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v54) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v70) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v71) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v87) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v88) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v91) S512x128.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_arg13) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg14) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v92) S512x128.size cc3_transform_3 reads3_3 true false 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v92) S512x128.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_arg15) S128x200.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg16) S200.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v93) S512x200.size cc4_transform_3 reads4_3 true false 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000 : Shape := ⟨1, ![50000]⟩
abbrev S800000 : Shape := ⟨1, ![800000]⟩
abbrev S100000x64 : Shape := ⟨2, ![100000, 64]⟩
abbrev S1000x64 : Shape := ⟨2, ![1000, 64]⟩
abbrev S128x128 : Shape := ⟨2, ![128, 128]⟩
abbrev S128 : Shape := ⟨1, ![128]⟩
abbrev S128x200 : Shape := ⟨2, ![128, 200]⟩
abbrev S200 : Shape := ⟨1, ![200]⟩
abbrev S_ : Shape := ⟨0, ![]⟩
abbrev S50000x1 : Shape := ⟨2, ![50000, 1]⟩
abbrev S50000x64 : Shape := ⟨2, ![50000, 64]⟩
abbrev S50000x128 : Shape := ⟨2, ![50000, 128]⟩
abbrev S800000x1 : Shape := ⟨2, ![800000, 1]⟩
abbrev S800000x128 : Shape := ⟨2, ![800000, 128]⟩
abbrev S1x128 : Shape := ⟨2, ![1, 128]⟩
abbrev S512x128 : Shape := ⟨2, ![512, 128]⟩
abbrev S512x200 : Shape := ⟨2, ![512, 200]⟩
abbrev S1x200 : Shape := ⟨2, ![1, 200]⟩

abbrev nBuf : Space → Nat
  | .hbm => 222
  | .vmem => 0
  | .smem => 0
  | _ => 0

abbrev hbmTy0_0 (i : Nat) : BufTy := match i % 128 with
  | 0 => ⟨S50000, .i32⟩
  | 1 => ⟨S50000, .i32⟩
  | 2 => ⟨S800000, .i32⟩
  | 3 => ⟨S800000, .i32⟩
  | 4 => ⟨S50000, .i32⟩
  | 5 => ⟨S100000x64, .f32⟩
  | 6 => ⟨S1000x64, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x200, .f32⟩
  | 16 => ⟨S200, .f32⟩
  | 17 => ⟨S_, .i32⟩
  | 18 => ⟨S50000, .i32⟩
  | 19 => ⟨S50000, .i1⟩
  | 20 => ⟨S_, .i32⟩
  | 21 => ⟨S50000, .i32⟩
  | 22 => ⟨S50000, .i32⟩
  | 23 => ⟨S50000, .i32⟩
  | 24 => ⟨S50000x1, .i32⟩
  | 25 => ⟨S50000x64, .f32⟩
  | 26 => ⟨S_, .i32⟩
  | 27 => ⟨S50000, .i32⟩
  | 28 => ⟨S50000, .i1⟩
  | 29 => ⟨S_, .i32⟩
  | 30 => ⟨S50000, .i32⟩
  | 31 => ⟨S50000, .i32⟩
  | 32 => ⟨S50000, .i32⟩
  | 33 => ⟨S50000x1, .i32⟩
  | 34 => ⟨S50000x64, .f32⟩
  | 35 => ⟨S50000x128, .f32⟩
  | 36 => ⟨S_, .f32⟩
  | 37 => ⟨S800000, .f32⟩
  | 38 => ⟨S_, .f32⟩
  | 39 => ⟨S50000, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S50000, .f32⟩
  | 49 => ⟨S_, .f32⟩
  | 50 => ⟨S50000, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S50000, .f32⟩
  | 60 => ⟨S_, .f32⟩
  | 61 => ⟨S50000, .f32⟩
  | 62 => ⟨S50000, .f32⟩
  | 63 => ⟨S50000, .f32⟩
  | 64 => ⟨S_, .f32⟩
  | 65 => ⟨S50000, .f32⟩
  | 66 => ⟨S50000, .f32⟩
  | 67 => ⟨S50000, .f32⟩
  | 68 => ⟨S50000x1, .f32⟩
  | 69 => ⟨S50000x128, .f32⟩
  | 70 => ⟨S50000x128, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x128, .f32⟩
  | 80 => ⟨S_, .f32⟩
  | 81 => ⟨S50000x128, .f32⟩
  | 82 => ⟨S800000x1, .i32⟩
  | 83 => ⟨S50000x128, .f32⟩
  | 84 => ⟨S50000x1, .f32⟩
  | 85 => ⟨S50000x128, .f32⟩
  | 86 => ⟨S50000x128, .f32⟩
  | 87 => ⟨S50000x128, .f32⟩
  | 88 => ⟨S1x128, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S_, .f32⟩
  | 95 => ⟨S800000, .f32⟩
  | 96 => ⟨S_, .f32⟩
  | 97 => ⟨S50000, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S50000, .f32⟩
  | 107 => ⟨S_, .f32⟩
  | 108 => ⟨S50000, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S50000, .f32⟩
  | 118 => ⟨S_, .f32⟩
  | 119 => ⟨S50000, .f32⟩
  | 120 => ⟨S50000, .f32⟩
  | 121 => ⟨S50000, .f32⟩
  | 122 => ⟨S_, .f32⟩
  | 123 => ⟨S50000, .f32⟩
  | 124 => ⟨S50000, .f32⟩
  | 125 => ⟨S50000, .f32⟩
  | 126 => ⟨S50000x1, .f32⟩
  | 127 => ⟨S50000x128, .f32⟩
  | _ => ⟨S50000, .i32⟩

abbrev hbmTy0_1 (i : Nat) : BufTy := match i % 128 with
  | 0 => ⟨S50000x128, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x128, .f32⟩
  | 10 => ⟨S_, .f32⟩
  | 11 => ⟨S50000x128, .f32⟩
  | 12 => ⟨S800000x1, .i32⟩
  | 13 => ⟨S50000x128, .f32⟩
  | 14 => ⟨S50000x1, .f32⟩
  | 15 => ⟨S50000x128, .f32⟩
  | 16 => ⟨S50000x128, .f32⟩
  | 17 => ⟨S50000x128, .f32⟩
  | 18 => ⟨S1x128, .f32⟩
  | 19 => ⟨S50000x128, .f32⟩
  | 20 => ⟨S50000x128, .f32⟩
  | 21 => ⟨S_, .f32⟩
  | 22 => ⟨S50000x128, .f32⟩
  | 23 => ⟨S50000x128, .f32⟩
  | 24 => ⟨S_, .f32⟩
  | 25 => ⟨S800000, .f32⟩
  | 26 => ⟨S_, .f32⟩
  | 27 => ⟨S50000, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S50000, .f32⟩
  | 37 => ⟨S_, .f32⟩
  | 38 => ⟨S50000, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S50000, .f32⟩
  | 48 => ⟨S_, .f32⟩
  | 49 => ⟨S50000, .f32⟩
  | 50 => ⟨S50000, .f32⟩
  | 51 => ⟨S50000, .f32⟩
  | 52 => ⟨S_, .f32⟩
  | 53 => ⟨S50000, .f32⟩
  | 54 => ⟨S50000, .f32⟩
  | 55 => ⟨S50000, .f32⟩
  | 56 => ⟨S50000x1, .f32⟩
  | 57 => ⟨S50000x128, .f32⟩
  | 58 => ⟨S50000x128, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x128, .f32⟩
  | 68 => ⟨S_, .f32⟩
  | 69 => ⟨S50000x128, .f32⟩
  | 70 => ⟨S800000x1, .i32⟩
  | 71 => ⟨S50000x128, .f32⟩
  | 72 => ⟨S50000x1, .f32⟩
  | 73 => ⟨S50000x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S512x128, .f32⟩
  | 81 => ⟨S50000x1, .i32⟩
  | 82 => ⟨S512x128, .f32⟩
  | 83 => ⟨S512x128, .f32⟩
  | 84 => ⟨S1x128, .f32⟩
  | 85 => ⟨S512x128, .f32⟩
  | 86 => ⟨S512x128, .f32⟩
  | 87 => ⟨S_, .f32⟩
  | 88 => ⟨S512x128, .f32⟩
  | 89 => ⟨S512x128, .f32⟩
  | 90 => ⟨S512x200, .f32⟩
  | 91 => ⟨S1x200, .f32⟩
  | 92 => ⟨S512x200, .f32⟩
  | 93 => ⟨S512x200, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst : Ref sig .tc := ⟨.hbm, 36, rfl⟩
abbrev main_v15 : Ref sig .tc := ⟨.hbm, 37, rfl⟩
abbrev main_cst_3 : Ref sig .tc := ⟨.hbm, 38, rfl⟩
abbrev main_v16 : Ref sig .tc := ⟨.hbm, 39, rfl⟩
abbrev main_c_4 : Ref sig .tc := ⟨.hbm, 40, rfl⟩
abbrev main_v17 : Ref sig .tc := ⟨.hbm, 41, rfl⟩
abbrev main_v18 : Ref sig .tc := ⟨.hbm, 42, rfl⟩
abbrev main_c_5 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_6 : Ref sig .tc := ⟨.hbm, 49, rfl⟩
abbrev main_v24 : Ref sig .tc := ⟨.hbm, 50, rfl⟩
abbrev main_c_7 : Ref sig .tc := ⟨.hbm, 51, rfl⟩
abbrev main_v25 : Ref sig .tc := ⟨.hbm, 52, rfl⟩
abbrev main_v26 : Ref sig .tc := ⟨.hbm, 53, rfl⟩
abbrev main_c_8 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_9 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_10 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_c_11 : Ref sig .tc := ⟨.hbm, 71, rfl⟩
abbrev main_v41 : Ref sig .tc := ⟨.hbm, 72, rfl⟩
abbrev main_v42 : Ref sig .tc := ⟨.hbm, 73, rfl⟩
abbrev main_c_12 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_13 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_call0_cst : Ref sig .tc := ⟨.hbm, 91, rfl⟩
abbrev main_call0_v0 : Ref sig .tc := ⟨.hbm, 92, rfl⟩
abbrev main_v58 : Ref sig .tc := ⟨.hbm, 93, rfl⟩
abbrev main_cst_14 : Ref sig .tc := ⟨.hbm, 94, rfl⟩
abbrev main_v59 : Ref sig .tc := ⟨.hbm, 95, rfl⟩
abbrev main_cst_15 : Ref sig .tc := ⟨.hbm, 96, rfl⟩
abbrev main_v60 : Ref sig .tc := ⟨.hbm, 97, rfl⟩
abbrev main_c_16 : Ref sig .tc := ⟨.hbm, 98, rfl⟩
abbrev main_v61 : Ref sig .tc := ⟨.hbm, 99, rfl⟩
abbrev main_v62 : Ref sig .tc := ⟨.hbm, 100, rfl⟩
abbrev main_c_17 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_cst_18 : Ref sig .tc := ⟨.hbm, 107, rfl⟩
abbrev main_v68 : Ref sig .tc := ⟨.hbm, 108, rfl⟩
abbrev main_c_19 : Ref sig .tc := ⟨.hbm, 109, rfl⟩
abbrev main_v69 : Ref sig .tc := ⟨.hbm, 110, rfl⟩
abbrev main_v70 : Ref sig .tc := ⟨.hbm, 111, rfl⟩
abbrev main_c_20 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_21 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_cst_22 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_c_23 : Ref sig .tc := ⟨.hbm, 129, rfl⟩
abbrev main_v85 : Ref sig .tc := ⟨.hbm, 130, rfl⟩
abbrev main_v86 : Ref sig .tc := ⟨.hbm, 131, rfl⟩
abbrev main_c_24 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_cst_25 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_call1_cst : Ref sig .tc := ⟨.hbm, 149, rfl⟩
abbrev main_call1_v0 : Ref sig .tc := ⟨.hbm, 150, rfl⟩
abbrev main_v102 : Ref sig .tc := ⟨.hbm, 151, rfl⟩
abbrev main_cst_26 : Ref sig .tc := ⟨.hbm, 152, rfl⟩
abbrev main_v103 : Ref sig .tc := ⟨.hbm, 153, rfl⟩
abbrev main_cst_27 : Ref sig .tc := ⟨.hbm, 154, rfl⟩
abbrev main_v104 : Ref sig .tc := ⟨.hbm, 155, rfl⟩
abbrev main_c_28 : Ref sig .tc := ⟨.hbm, 156, rfl⟩
abbrev main_v105 : Ref sig .tc := ⟨.hbm, 157, rfl⟩
abbrev main_v106 : Ref sig .tc := ⟨.hbm, 158, rfl⟩
abbrev main_c_29 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_cst_30 : Ref sig .tc := ⟨.hbm, 165, rfl⟩
abbrev main_v112 : Ref sig .tc := ⟨.hbm, 166, rfl⟩
abbrev main_c_31 : Ref sig .tc := ⟨.hbm, 167, rfl⟩
abbrev main_v113 : Ref sig .tc := ⟨.hbm, 168, rfl⟩
abbrev main_v114 : Ref sig .tc := ⟨.hbm, 169, rfl⟩
abbrev main_c_32 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_cst_33 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_cst_34 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_c_35 : Ref sig .tc := ⟨.hbm, 187, rfl⟩
abbrev main_v129 : Ref sig .tc := ⟨.hbm, 188, rfl⟩
abbrev main_v130 : Ref sig .tc := ⟨.hbm, 189, rfl⟩
abbrev main_c_36 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_cst_37 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_cst_38 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_call2_cst : Ref sig .tc := ⟨.hbm, 215, rfl⟩
abbrev main_call2_v0 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  concatenates_S50000x64_S50000x64_S50000x128_d1 : Shape.Concatenates [S50000x64, S50000x64] S50000x128 1
  bcast_S_S800000 : S_.BroadcastsInDim S800000 (![] : Fin 0 → Fin S800000.rank)
  bcast_S800000_S800000x1_0 : S800000.BroadcastsInDim S800000x1 (![0] : Fin 1 → Fin S800000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S1x128_S512x128_0_1 : S1x128.BroadcastsInDim S512x128 (![0, 1] : Fin 2 → Fin S512x128.rank)
  bcast_S200_S1x200_1 : S200.BroadcastsInDim S1x200 (![1] : Fin 1 → Fin S1x200.rank)
  bcast_S1x200_S512x200_0_1 : S1x200.BroadcastsInDim S512x200 (![0, 1] : Fin 2 → Fin S512x200.rank)
  gather_S100000x64_S50000x1_S50000x64_1_0_n_n_0_1_164_wf : GatherDims.WF S100000x64 S50000x1 S50000x64 [1] [0] [] [0] [] 1 ![1, 64]
  gather_S1000x64_S50000x1_S50000x64_1_0_n_n_0_1_164_wf : GatherDims.WF S1000x64 S50000x1 S50000x64 [1] [0] [] [0] [] 1 ![1, 64]
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S512x128_S50000x1_S50000x128_1_0_0_1_wf : ScatterDims.WF S512x128 S50000x1 S50000x128 [1] [0] [0] 1
  dot_S512x128_S128x128_S512x128_1_0_0_1_n_n_wf : DotDims.WF S512x128 S128x128 S512x128 [1] [0] [0] [1] [] []
  dot_S512x128_S128x200_S512x200_1_0_0_1_n_n_wf : DotDims.WF S512x128 S128x200 S512x200 [1] [0] [0] [1] [] []

variable [Facts₀]

def gather_S100000x64_S50000x1_S50000x64_1_0_n_n_0_1_164 : GatherDims S100000x64 S50000x1 S50000x64 where
  offsetDims := [1]
  collapsedSliceDims := [0]
  operandBatchingDims := []
  startIndicesBatchingDims := []
  startIndexMap := [0]
  indexVectorDim := 1
  sliceSizes := ![1, 64]
  wf := gather_S100000x64_S50000x1_S50000x64_1_0_n_n_0_1_164_wf
def gather_S1000x64_S50000x1_S50000x64_1_0_n_n_0_1_164 : GatherDims S1000x64 S50000x1 S50000x64 where
  offsetDims := [1]
  collapsedSliceDims := [0]
  operandBatchingDims := []
  startIndicesBatchingDims := []
  startIndexMap := [0]
  indexVectorDim := 1
  sliceSizes := ![1, 64]
  wf := gather_S1000x64_S50000x1_S50000x64_1_0_n_n_0_1_164_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x200_S512x200_1_0_0_1_n_n : DotDims S512x128 S128x200 S512x200 where
  lhsContracting := [1]
  rhsContracting := [0]
  lhsNonContracting := [0]
  rhsNonContracting := [1]
  lhsBatch := []
  rhsBatch := []
  wf := dot_S512x128_S128x200_S512x200_1_0_0_1_n_n_wf

class Facts : Prop extends Facts₀ where

variable [Facts]
-- ==== Proof.KernelRun.lean ====
/-
  The idealized kernel program's whole run with its result named.

  The program is five kernel launches among stretches of host operations. Its frame certificate folds the buffer
  contents through those nine segments (`W0 … W9`); the same launch over the same segments, read at the result
  buffer as well as at the arguments, says that every execution ends with the result buffer holding the fold's
  last stage there, and with the arguments as launched.
-/
import proofs.«154146_j14370960573130_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    stage of the fold through the segments and every argument as launched. -/
theorem run : θ_run defs (onTc (τ := τ) (main (F := F))) ⟨m, fun _ => 0, ρ⟩ (fun r => ∀ c : Dev nD,
      r.2.mem ((c.tc : Thread nD τ).loc main_v93) = W9 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v93 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c)⟩)

end Cert.KernelIdeal.Whole

end
-- ==== Proof.Net.lean ====
/-
  The network both programs compute, as one function of the seventeen argument arrays.

  A node's feature row is the concatenation of two embedding rows (entity id, structural label). Three graph
  convolutions follow: scale each row by the source normaliser rsqrt(max(out-degree, 1)), sum the rows of every
  edge's source into the edge's destination, scale by the destination normaliser rsqrt(max(in-degree, 1)), and
  apply a dense layer x ↦ x·W + b (followed by max(·, 0) in the first two). The rows are then summed per graph
  and two dense layers (the first followed by max(·, 0)) give the result.

  Everything except the dense layers is spelt with the host operations themselves, so that neither side ever has to
  open a gather or a scatter-add; the dense layers are parameters (`net`), instantiated by the index-by-index
  functions `dense` / `denseRelu`:  (x·W + b) at (r, c) is  (∑ k, x(r,k) · W(k,c)) + b(c).
-/
import proofs.«154146_j14370960573130_1_alg».proof.Proof.Gen.KernelIdeal
import Idealize.ShloMosaic.PureOps.Ideal
import Idealize.ShloMosaic.Lib.ValueIdx

noncomputable section

namespace Cert.Net

open Idealize.ShloMosaic Cert.KernelIdeal Cert.KernelIdeal.Facts₀

variable {F : FTy → Type} [FloatOps F]

/-- A negative index counts from the end: `idx < 0 ? idx + n : idx`, over the 50000 nodes. -/
def wrapNode (n : BitVec 32) (idx : (⟨S50000, .i32⟩ : BufTy).Contents (Elt F)) : (⟨S50000, .i32⟩ : BufTy).Contents (Elt F) :=
  select (cmpi .slt idx (broadcastInDim S50000 ![] bcast_S_S50000 (constantI S_ 32 0#32)))
    (addi idx (broadcastInDim S50000 ![] bcast_S_S50000 (constantI S_ 32 n))) idx

/-- The same over the 800000 edges (an endpoint below zero counts from node 50000). -/
def wrapEdge (idx : (⟨S800000, .i32⟩ : BufTy).Contents (Elt F)) : (⟨S800000, .i32⟩ : BufTy).Contents (Elt F) :=
  select (cmpi .slt idx (broadcastInDim S800000 ![] bcast_S_S800000 (constantI S_ 32 0#32)))
    (addi idx (broadcastInDim S800000 ![] bcast_S_S800000 (constantI S_ 32 50000#32))) idx

/-- Node features: row `nid` of the entity table beside row `z` of the label table. -/
def embed (nid z : (⟨S50000, .i32⟩ : BufTy).Contents (Elt F)) (E : (⟨S100000x64, .f32⟩ : BufTy).Contents (Elt F))
    (Z : (⟨S1000x64, .f32⟩ : BufTy).Contents (Elt F)) : (⟨S50000x128, .f32⟩ : BufTy).Contents (Elt F) :=
  concatenate S50000x128 1
    [⟨S50000x64, Host.gather gather_S100000x64_S50000x1_S50000x64_1_0_n_n_0_1_164 E
        (broadcastInDim S50000x1 ![0] bcast_S50000_S50000x1_0 (wrapNode (F := F) 100000#32 nid))⟩,
     ⟨S50000x64, Host.gather gather_S1000x64_S50000x1_S50000x64_1_0_n_n_0_1_164 Z
        (broadcastInDim S50000x1 ![0] bcast_S50000_S50000x1_0 (wrapNode (F := F) 1000#32 z))⟩]
    concatenates_S50000x64_S50000x64_S50000x128_d1

/-- A degree normaliser: rsqrt(max(deg, 1)), `deg` the number of edges whose endpoint `ends` is the node. -/
def degNorm (ends : (⟨S800000, .i32⟩ : BufTy).Contents (Elt F)) : (⟨S50000, .f32⟩ : BufTy).Contents (Elt F) :=
  Host.rsqrt (maximumf
    (Host.scatterAdd scatter_S50000_S800000x1_S800000_n_0_0_1
      (broadcastInDim S50000 ![] bcast_S_S50000 (constant S_ .f32 0x00000000#32))
      (broadcastInDim S800000x1 ![0] bcast_S800000_S800000x1_0 (wrapEdge (F := F) ends))
      (broadcastInDim S800000 ![] bcast_S_S800000 (constant S_ .f32 0x3F800000#32)))
    (broadcastInDim S50000 ![] bcast_S_S50000 (constant S_ .f32 0x3F800000#32)))

/-- One normalised aggregation: every node's row becomes the sum, over the edges arriving at it, of the source
    node's row scaled by `nout`; the sum is scaled by `nin`. -/
def propagate (x : (⟨S50000x128, .f32⟩ : BufTy).Contents (Elt F)) (src dst : (⟨S800000, .i32⟩ : BufTy).Contents (Elt F))
    (nout nin : (⟨S50000, .f32⟩ : BufTy).Contents (Elt F)) : (⟨S50000x128, .f32⟩ : BufTy).Contents (Elt F) :=
  mulf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (Host.gather gather_S50000x128_S800000x1_S800000x128_1_0_n_n_0_1_1128
        (mulf x (broadcastInDim S50000x128 ![0, 1] bcast_S50000x1_S50000x128_0_1
          (broadcastInDim S50000x1 ![0] bcast_S50000_S50000x1_0 nout)))
        (broadcastInDim S800000x1 ![0] bcast_S800000_S800000x1_0 (wrapEdge (F := F) src))))
    (broadcastInDim S50000x128 ![0, 1] bcast_S50000x1_S50000x128_0_1
      (broadcastInDim S50000x1 ![0] bcast_S50000_S50000x1_0 nin))

/-- Sum pooling: row `g` of the result is the sum of the rows of the nodes whose graph id is `g`. -/
def pool (x : (⟨S50000x128, .f32⟩ : BufTy).Contents (Elt F)) (gid : (⟨S50000, .i32⟩ : BufTy).Contents (Elt F)) :
    (⟨S512x128, .f32⟩ : BufTy).Contents (Elt F) :=
  Host.scatterAdd scatter_S512x128_S50000x1_S50000x128_1_0_0_1
    (broadcastInDim S512x128 ![] bcast_S_S512x128 (constant S_ .f32 0x00000000#32))
    (broadcastInDim S50000x1 ![0] bcast_S50000_S50000x1_0 gid) x

/-- The whole network over given dense layers `L0 … L4`. -/
def net
    (L0 L1 L2 : (⟨S50000x128, .f32⟩ : BufTy).Contents (Elt F) → (⟨S128x128, .f32⟩ : BufTy).Contents (Elt F) →
      (⟨S128, .f32⟩ : BufTy).Contents (Elt F) → (⟨S50000x128, .f32⟩ : BufTy).Contents (Elt F))
    (L3 : (⟨S512x128, .f32⟩ : BufTy).Contents (Elt F) → (⟨S128x128, .f32⟩ : BufTy).Contents (Elt F) →
      (⟨S128, .f32⟩ : BufTy).Contents (Elt F) → (⟨S512x128, .f32⟩ : BufTy).Contents (Elt F))
    (L4 : (⟨S512x128, .f32⟩ : BufTy).Contents (Elt F) → (⟨S128x200, .f32⟩ : BufTy).Contents (Elt F) →
      (⟨S200, .f32⟩ : BufTy).Contents (Elt F) → (⟨S512x200, .f32⟩ : BufTy).Contents (Elt F))
    (nid z : (⟨S50000, .i32⟩ : BufTy).Contents (Elt F)) (src dst : (⟨S800000, .i32⟩ : BufTy).Contents (Elt F))
    (gid : (⟨S50000, .i32⟩ : BufTy).Contents (Elt F))
    (E : (⟨S100000x64, .f32⟩ : BufTy).Contents (Elt F)) (Z : (⟨S1000x64, .f32⟩ : BufTy).Contents (Elt F))
    (W0 : (⟨S128x128, .f32⟩ : BufTy).Contents (Elt F)) (b0 : (⟨S128, .f32⟩ : BufTy).Contents (Elt F))
    (W1 : (⟨S128x128, .f32⟩ : BufTy).Contents (Elt F)) (b1 : (⟨S128, .f32⟩ : BufTy).Contents (Elt F))
    (W2 : (⟨S128x128, .f32⟩ : BufTy).Contents (Elt F)) (b2 : (⟨S128, .f32⟩ : BufTy).Contents (Elt F))
    (W3 : (⟨S128x128, .f32⟩ : BufTy).Contents (Elt F)) (b3 : (⟨S128, .f32⟩ : BufTy).Contents (Elt F))
    (W4 : (⟨S128x200, .f32⟩ : BufTy).Contents (Elt F)) (b4 : (⟨S200, .f32⟩ : BufTy).Contents (Elt F)) :
    (⟨S512x200, .f32⟩ : BufTy).Contents (Elt F) :=
  L4 (L3 (pool
    (L2 (propagate
      (L1 (propagate
        (L0 (propagate (embed nid z E Z) src dst (degNorm src) (degNorm dst)) W0 b0)
        src dst (degNorm src) (degNorm dst)) W1 b1)
      src dst (degNorm src) (degNorm dst)) W2 b2) gid) W3 b3) W4 b4

/-! ## A dense layer, index by index, on the extended reals -/

open ValueIdx

/-- `x·W + b` at row `r`, column `c`: the sum over the contracted axis of the products, plus the bias. -/
def dense (R K C : Nat) (x : (⟨2, ![R, K]⟩ : Shape).Idx → EReal) (W : (⟨2, ![K, C]⟩ : Shape).Idx → EReal)
    (b : (⟨1, ![C]⟩ : Shape).Idx → EReal) : (⟨2, ![R, C]⟩ : Shape).Idx → EReal :=
  fun i => (∑ k : Fin K, x (ix2 (i 0) k) * W (ix2 k (i 1))) + b (ix1 (i 1))

/-- The same followed by `max(·, 0)`. -/
def denseRelu (R K C : Nat) (x : (⟨2, ![R, K]⟩ : Shape).Idx → EReal) (W : (⟨2, ![K, C]⟩ : Shape).Idx → EReal)
    (b : (⟨1, ![C]⟩ : Shape).Idx → EReal) : (⟨2, ![R, C]⟩ : Shape).Idx → EReal :=
  fun i => max (dense R K C x W b i) 0

theorem dense_apply (R K C : Nat) (x : (⟨2, ![R, K]⟩ : Shape).Idx → EReal) (W : (⟨2, ![K, C]⟩ : Shape).Idx → EReal)
    (b : (⟨1, ![C]⟩ : Shape).Idx → EReal) (r : Fin R) (c : Fin C) :
    dense R K C x W b (ix2 r c) = (∑ k : Fin K, x (ix2 r k) * W (ix2 k c)) + b (ix1 c) := rfl

theorem denseRelu_apply (R K C : Nat) (x : (⟨2, ![R, K]⟩ : Shape).Idx → EReal) (W : (⟨2, ![K, C]⟩ : Shape).Idx → EReal)
    (b : (⟨1, ![C]⟩ : Shape).Idx → EReal) (r : Fin R) (c : Fin C) :
    denseRelu R K C x W b (ix2 r c) = max ((∑ k : Fin K, x (ix2 r k) * W (ix2 k c)) + b (ix1 c)) 0 := rfl

/-- The network at the extended reals with the index-by-index dense layers. -/
abbrev value :=
  net (F := Ideal) (denseRelu 50000 128 128) (denseRelu 50000 128 128) (dense 50000 128 128)
    (denseRelu 512 128 128) (dense 512 128 200)

end Cert.Net

end
-- ==== Proof.DotSum.lean ====
/-
  A plain matrix product read at an index.

  For dimension numbers that contract the second axis of an [R, K] operand with the first axis of a [K, C]
  operand (no batch axes), the contraction index is its one coordinate k, and the operand indices at the output
  index (r, c) are (r, k) and (k, c). So the product's sum over the contraction index is  ∑ k, x(r,k) · W(k,c),
  whatever the extents. The four coordinate facts are hypotheses here; each concrete set of dimension numbers
  supplies them by computation.
-/
import Idealize.ShloMosaic.PureOps.Ideal
import Idealize.ShloMosaic.PureOps.Ideal.Laws
import Idealize.ShloMosaic.Lib.ValueIdx

noncomputable section

namespace Cert.Net

open Idealize.ShloMosaic ValueIdx

theorem dot_sum_ix2 {R K C : Nat} (d : DotDims ⟨2, ![R, K]⟩ ⟨2, ![K, C]⟩ ⟨2, ![R, C]⟩)
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (x : (⟨2, ![R, K]⟩ : Shape).Idx → EReal) (W : (⟨2, ![K, C]⟩ : Shape).Idx → EReal)
    (i : (⟨2, ![R, C]⟩ : Shape).Idx) :
    ∑ q : d.contr.Idx, x (d.lhsIdx i q) * W (d.rhsIdx i q)
      = ∑ k : Fin K, x (ix2 (n0 := R) (n1 := K) (i 0) k) * W (ix2 (n0 := K) (n1 := C) k (i 1)) := by
  rw [← Equiv.sum_comp (contrEquiv1 d K hr hs).symm]
  refine Finset.sum_congr rfl fun k _ => ?_
  have hk := contrEquiv1_symm_val d K hr hs k
  have el : d.lhsIdx i ((contrEquiv1 d K hr hs).symm k) = ix2 (n0 := R) (n1 := K) (i 0) k :=
    funext fun a => Fin.ext (by
      match a with
      | ⟨0, _⟩ => exact hl0 _ _
      | ⟨1, _⟩ => exact (hl1 _ _).trans hk)
  have er : d.rhsIdx i ((contrEquiv1 d K hr hs).symm k) = ix2 (n0 := K) (n1 := C) k (i 1) :=
    funext fun a => Fin.ext (by
      match a with
      | ⟨0, _⟩ => exact (hr0 _ _).trans hk
      | ⟨1, _⟩ => exact hr1 _ _)
  rw [el, er]

end Cert.Net

end
-- ==== Proof.KernelDense.lean ====
/-
  Each launch's body as a dense layer of its loaded blocks.

  The five bodies are the same text at three sets of extents: load a block of rows, the weight and the bias; cast the
  two matrices to bf16 (the identity on the extended reals); multiply into a zero accumulator; add the bias row to every
  row; in launches 0, 1 and 3 take the maximum with zero; store. At (r, c) that is (∑ k, x(r,k)·W(k,c)) + b(c),
  with or without the maximum.
-/
import proofs.«154146_j14370960573130_1_alg».proof.Proof.Gen.KernelIdeal.Skeleton
import proofs.«154146_j14370960573130_1_alg».proof.Proof.Net
import proofs.«154146_j14370960573130_1_alg».proof.Proof.DotSum
import Idealize.ShloMosaic.Lib.Pipeline.Value
import Idealize.ShloMosaic.Lib.ValueLayout

noncomputable section

namespace Cert.KernelIdeal.Body

open Cert.KernelIdeal Cert.KernelIdeal.Gen Cert.Net Idealize.ShloMosaic ValueIdx

/-- The product's sum for these dimension numbers ([5000, 128] by [128, 128]): over k, x(r,k) · W(k,c). -/
theorem sum_dot5000 (x : (⟨2, ![5000, 128]⟩ : Shape).Idx → EReal) (W : (⟨2, ![128, 128]⟩ : Shape).Idx → EReal)
    (i : (⟨2, ![5000, 128]⟩ : Shape).Idx) :
    ∑ q : dot_S5000x128_S128x128_S5000x128_1_0_0_1_n_n.contr.Idx, x (dot_S5000x128_S128x128_S5000x128_1_0_0_1_n_n.lhsIdx i q) * W (dot_S5000x128_S128x128_S5000x128_1_0_0_1_n_n.rhsIdx i q)
      = ∑ k : Fin 128, x (ix2 (n0 := 5000) (n1 := 128) (i 0) k) * W (ix2 (n0 := 128) (n1 := 128) k (i 1)) :=
  dot_sum_ix2 dot_S5000x128_S128x128_S5000x128_1_0_0_1_n_n rfl rfl
    (fun i q => by
      unfold DotDims.lhsIdx
      rw [dif_neg (show ¬(0 : Fin S5000x128.rank) ∈ dot_S5000x128_S128x128_S5000x128_1_0_0_1_n_n.lhsBatch by decide),
        dif_pos (show (0 : Fin S5000x128.rank) ∈ dot_S5000x128_S128x128_S5000x128_1_0_0_1_n_n.lhsNonContracting by decide)]
      rfl)
    (fun i q => dot_S5000x128_S128x128_S5000x128_1_0_0_1_n_n.lhsIdx_val_of_single rfl i q)
    (fun i q => dot_S5000x128_S128x128_S5000x128_1_0_0_1_n_n.rhsIdx_val_of_single rfl i q)
    (fun i q => by
      unfold DotDims.rhsIdx
      rw [dif_neg (show ¬(1 : Fin S128x128.rank) ∈ dot_S5000x128_S128x128_S5000x128_1_0_0_1_n_n.rhsBatch by decide),
        dif_pos (show (1 : Fin S128x128.rank) ∈ dot_S5000x128_S128x128_S5000x128_1_0_0_1_n_n.rhsNonContracting by decide)]
      rfl)
    x W i

/-- The product's sum for these dimension numbers ([512, 128] by [128, 128]): over k, x(r,k) · W(k,c). -/
theorem sum_dot512 (x : (⟨2, ![512, 128]⟩ : Shape).Idx → EReal) (W : (⟨2, ![128, 128]⟩ : Shape).Idx → EReal)
    (i : (⟨2, ![512, 128]⟩ : Shape).Idx) :
    ∑ q : dot_S512x128_S128x128_S512x128_1_0_0_1_n_n.contr.Idx, x (dot_S512x128_S128x128_S512x128_1_0_0_1_n_n.lhsIdx i q) * W (dot_S512x128_S128x128_S512x128_1_0_0_1_n_n.rhsIdx i q)
      = ∑ k : Fin 128, x (ix2 (n0 := 512) (n1 := 128) (i 0) k) * W (ix2 (n0 := 128) (n1 := 128) k (i 1)) :=
  dot_sum_ix2 dot_S512x128_S128x128_S512x128_1_0_0_1_n_n rfl rfl
    (fun i q => by
      unfold DotDims.lhsIdx
      rw [dif_neg (show ¬(0 : Fin S512x128.rank) ∈ dot_S512x128_S128x128_S512x128_1_0_0_1_n_n.lhsBatch by decide),
        dif_pos (show (0 : Fin S512x128.rank) ∈ dot_S512x128_S128x128_S512x128_1_0_0_1_n_n.lhsNonContracting by decide)]
      rfl)
    (fun i q => dot_S512x128_S128x128_S512x128_1_0_0_1_n_n.lhsIdx_val_of_single rfl i q)
    (fun i q => dot_S512x128_S128x128_S512x128_1_0_0_1_n_n.rhsIdx_val_of_single rfl i q)
    (fun i q => by
      unfold DotDims.rhsIdx
      rw [dif_neg (show ¬(1 : Fin S128x128.rank) ∈ dot_S512x128_S128x128_S512x128_1_0_0_1_n_n.rhsBatch by decide),
        dif_pos (show (1 : Fin S128x128.rank) ∈ dot_S512x128_S128x128_S512x128_1_0_0_1_n_n.rhsNonContracting by decide)]
      rfl)
    x W i

/-- The product's sum for these dimension numbers ([512, 128] by [128, 200]): over k, x(r,k) · W(k,c). -/
theorem sum_dot512x200 (x : (⟨2, ![512, 128]⟩ : Shape).Idx → EReal) (W : (⟨2, ![128, 200]⟩ : Shape).Idx → EReal)
    (i : (⟨2, ![512, 200]⟩ : Shape).Idx) :
    ∑ q : dot_S512x128_S128x200_S512x200_1_0_0_1_n_n.contr.Idx, x (dot_S512x128_S128x200_S512x200_1_0_0_1_n_n.lhsIdx i q) * W (dot_S512x128_S128x200_S512x200_1_0_0_1_n_n.rhsIdx i q)
      = ∑ k : Fin 128, x (ix2 (n0 := 512) (n1 := 128) (i 0) k) * W (ix2 (n0 := 128) (n1 := 200) k (i 1)) :=
  dot_sum_ix2 dot_S512x128_S128x200_S512x200_1_0_0_1_n_n rfl rfl
    (fun i q => by
      unfold DotDims.lhsIdx
      rw [dif_neg (show ¬(0 : Fin S512x128.rank) ∈ dot_S512x128_S128x200_S512x200_1_0_0_1_n_n.lhsBatch by decide),
        dif_pos (show (0 : Fin S512x128.rank) ∈ dot_S512x128_S128x200_S512x200_1_0_0_1_n_n.lhsNonContracting by decide)]
      rfl)
    (fun i q => dot_S512x128_S128x200_S512x200_1_0_0_1_n_n.lhsIdx_val_of_single rfl i q)
    (fun i q => dot_S512x128_S128x200_S512x200_1_0_0_1_n_n.rhsIdx_val_of_single rfl i q)
    (fun i q => by
      unfold DotDims.rhsIdx
      rw [dif_neg (show ¬(1 : Fin S128x200.rank) ∈ dot_S512x128_S128x200_S512x200_1_0_0_1_n_n.rhsBatch by decide),
        dif_pos (show (1 : Fin S128x200.rank) ∈ dot_S512x128_S128x200_S512x200_1_0_0_1_n_n.rhsNonContracting by decide)]
      rfl)
    x W i

/-- Launch 0's body computes, of its three loaded blocks, the dense layer followed by max(·, 0): the change of
    float format is the identity on the extended reals, the matrix product into a zero accumulator is the plain
    sum, and the bias row is broadcast down the rows. -/
theorem pay0_eq (x : FVec Ideal S5000x128 .f32) (w : FVec Ideal S128x128 .f32) (b : FVec Ideal S128 .f32) :
    k0_pay1 (F := Ideal) x w b = denseRelu 5000 128 128 x w b := by
  funext j
  obtain ⟨r, c, rfl⟩ : ∃ (r : Fin 5000) (c : Fin 128), j = ix2 r c := ⟨j 0, j 1, eq_ix2 j⟩
  rw [denseRelu_apply]
  unfold k0_pay1
  rw [maximumf_apply, addf_apply, broadcast_apply]
  have h1 : matmul dot_S5000x128_S128x128_S5000x128_1_0_0_1_n_n none
      (truncf .bf16 (shapeCast S5000x128 x shapeCasts_S5000x128_S5000x128) bitsLt_bf16_f32) (truncf .bf16 w bitsLt_bf16_f32)
      (constant S5000x128 .f32 0x00000000#32) (ix2 r c) = ∑ k : Fin 128, x (ix2 r k) * w (ix2 k c) := by
    simp only [matmul]
    rw [Ideal.matmul_constant_zero_apply, shapeCast_self]
    exact sum_dot5000 x w (ix2 r c)
  have h2 : broadcastTo S5000x128 (shapeCast S1x128 b shapeCasts_S128_S1x128) broadcasts_S1x128_S5000x128 (ix2 r c) = b (ix1 c) := by
    rw [broadcastTo_1b_ab_apply, shapeCast_a_1a_apply]
  rw [h1, h2]
  exact congrArg (max _) Ideal.ofBits_zero_f32

/-- Launch 1's body computes, of its three loaded blocks, the dense layer followed by max(·, 0): the change of
    float format is the identity on the extended reals, the matrix product into a zero accumulator is the plain
    sum, and the bias row is broadcast down the rows. -/
theorem pay1_eq (x : FVec Ideal S5000x128 .f32) (w : FVec Ideal S128x128 .f32) (b : FVec Ideal S128 .f32) :
    k1_pay1 (F := Ideal) x w b = denseRelu 5000 128 128 x w b := by
  funext j
  obtain ⟨r, c, rfl⟩ : ∃ (r : Fin 5000) (c : Fin 128), j = ix2 r c := ⟨j 0, j 1, eq_ix2 j⟩
  rw [denseRelu_apply]
  unfold k1_pay1
  rw [maximumf_apply, addf_apply, broadcast_apply]
  have h1 : matmul dot_S5000x128_S128x128_S5000x128_1_0_0_1_n_n none
      (truncf .bf16 (shapeCast S5000x128 x shapeCasts_S5000x128_S5000x128) bitsLt_bf16_f32) (truncf .bf16 w bitsLt_bf16_f32)
      (constant S5000x128 .f32 0x00000000#32) (ix2 r c) = ∑ k : Fin 128, x (ix2 r k) * w (ix2 k c) := by
    simp only [matmul]
    rw [Ideal.matmul_constant_zero_apply, shapeCast_self]
    exact sum_dot5000 x w (ix2 r c)
  have h2 : broadcastTo S5000x128 (shapeCast S1x128 b shapeCasts_S128_S1x128) broadcasts_S1x128_S5000x128 (ix2 r c) = b (ix1 c) := by
    rw [broadcastTo_1b_ab_apply, shapeCast_a_1a_apply]
  rw [h1, h2]
  exact congrArg (max _) Ideal.ofBits_zero_f32

/-- Launch 2's body computes, of its three loaded blocks, the dense layer: the change of
    float format is the identity on the extended reals, the matrix product into a zero accumulator is the plain
    sum, and the bias row is broadcast down the rows. -/
theorem pay2_eq (x : FVec Ideal S5000x128 .f32) (w : FVec Ideal S128x128 .f32) (b : FVec Ideal S128 .f32) :
    k2_pay1 (F := Ideal) x w b = dense 5000 128 128 x w b := by
  funext j
  obtain ⟨r, c, rfl⟩ : ∃ (r : Fin 5000) (c : Fin 128), j = ix2 r c := ⟨j 0, j 1, eq_ix2 j⟩
  rw [dense_apply]
  unfold k2_pay1
  rw [addf_apply]
  have h1 : matmul dot_S5000x128_S128x128_S5000x128_1_0_0_1_n_n none
      (truncf .bf16 (shapeCast S5000x128 x shapeCasts_S5000x128_S5000x128) bitsLt_bf16_f32) (truncf .bf16 w bitsLt_bf16_f32)
      (constant S5000x128 .f32 0x00000000#32) (ix2 r c) = ∑ k : Fin 128, x (ix2 r k) * w (ix2 k c) := by
    simp only [matmul]
    rw [Ideal.matmul_constant_zero_apply, shapeCast_self]
    exact sum_dot5000 x w (ix2 r c)
  have h2 : broadcastTo S5000x128 (shapeCast S1x128 b shapeCasts_S128_S1x128) broadcasts_S1x128_S5000x128 (ix2 r c) = b (ix1 c) := by
    rw [broadcastTo_1b_ab_apply, shapeCast_a_1a_apply]
  rw [h1, h2]

/-- Launch 3's body computes, of its three loaded blocks, the dense layer followed by max(·, 0): the change of
    float format is the identity on the extended reals, the matrix product into a zero accumulator is the plain
    sum, and the bias row is broadcast down the rows. -/
theorem pay3_eq (x : FVec Ideal S512x128 .f32) (w : FVec Ideal S128x128 .f32) (b : FVec Ideal S128 .f32) :
    k3_pay1 (F := Ideal) x w b = denseRelu 512 128 128 x w b := by
  funext j
  obtain ⟨r, c, rfl⟩ : ∃ (r : Fin 512) (c : Fin 128), j = ix2 r c := ⟨j 0, j 1, eq_ix2 j⟩
  rw [denseRelu_apply]
  unfold k3_pay1
  rw [maximumf_apply, addf_apply, broadcast_apply]
  have h1 : matmul dot_S512x128_S128x128_S512x128_1_0_0_1_n_n none
      (truncf .bf16 (shapeCast S512x128 x shapeCasts_S512x128_S512x128) bitsLt_bf16_f32) (truncf .bf16 w bitsLt_bf16_f32)
      (constant S512x128 .f32 0x00000000#32) (ix2 r c) = ∑ k : Fin 128, x (ix2 r k) * w (ix2 k c) := by
    simp only [matmul]
    rw [Ideal.matmul_constant_zero_apply, shapeCast_self]
    exact sum_dot512 x w (ix2 r c)
  have h2 : broadcastTo S512x128 (shapeCast S1x128 b shapeCasts_S128_S1x128) broadcasts_S1x128_S512x128 (ix2 r c) = b (ix1 c) := by
    rw [broadcastTo_1b_ab_apply, shapeCast_a_1a_apply]
  rw [h1, h2]
  exact congrArg (max _) Ideal.ofBits_zero_f32

/-- Launch 4's body computes, of its three loaded blocks, the dense layer: the change of
    float format is the identity on the extended reals, the matrix product into a zero accumulator is the plain
    sum, and the bias row is broadcast down the rows. -/
theorem pay4_eq (x : FVec Ideal S512x128 .f32) (w : FVec Ideal S128x200 .f32) (b : FVec Ideal S200 .f32) :
    k4_pay1 (F := Ideal) x w b = dense 512 128 200 x w b := by
  funext j
  obtain ⟨r, c, rfl⟩ : ∃ (r : Fin 512) (c : Fin 200), j = ix2 r c := ⟨j 0, j 1, eq_ix2 j⟩
  rw [dense_apply]
  unfold k4_pay1
  rw [addf_apply]
  have h1 : matmul dot_S512x128_S128x200_S512x200_1_0_0_1_n_n none
      (truncf .bf16 (shapeCast S512x128 x shapeCasts_S512x128_S512x128) bitsLt_bf16_f32) (truncf .bf16 w bitsLt_bf16_f32)
      (constant S512x200 .f32 0x00000000#32) (ix2 r c) = ∑ k : Fin 128, x (ix2 r k) * w (ix2 k c) := by
    simp only [matmul]
    rw [Ideal.matmul_constant_zero_apply, shapeCast_self]
    exact sum_dot512x200 x w (ix2 r c)
  have h2 : broadcastTo S512x200 (shapeCast S1x200 b shapeCasts_S200_S1x200) broadcasts_S1x200_S512x200 (ix2 r c) = b (ix1 c) := by
    rw [broadcastTo_1b_ab_apply, shapeCast_a_1a_apply]
  rw [h1, h2]

end Cert.KernelIdeal.Body

end
-- ==== Proof.KernelBlocks0.lean ====
/-
  Launch 0 as a whole-array function.

  The grid has 10 points; point t stages rows 5000·t … 5000·t + 4999 of the [50000, 128] operand, the whole
  [128, 128] weight and the whole bias, and writes back rows 5000·t … 5000·t + 4999 of the [50000, 128] result. A row of the
  dense layer depends only on the same row of the operand, so what point t writes back is its block of the dense
  layer of the whole arrays; the blocks tile the result, which therefore ends holding the dense layer (with max(·, 0)) of
  the arrays as the launch finds them.
-/
import proofs.«154146_j14370960573130_1_alg».proof.Proof.Gen.KernelIdeal.Frame
import proofs.«154146_j14370960573130_1_alg».proof.Proof.KernelDense
import Idealize.ShloMosaic.Lib.Pipeline.Value

set_option maxRecDepth 16384

noncomputable section

namespace Cert.KernelIdeal.Blocks

open Cert.KernelIdeal Cert.KernelIdeal.Gen Cert.KernelIdeal.Body Cert.Net
open Idealize.ShloMosaic Idealize.ShloMosaic.TcCoe Idealize.SL.Sem ValueIdx
open Idealize.ShloMosaic.Pipeline (Dat)

variable (V : (c : Dev nD) → (b : Ref sig .tc) → Buf (Elt Ideal) ((c : Thread nD τ).loc b))

/-- The printed index maps over the grid: the operand's and the result's row block is the point's number, every
    other block index is zero. -/
theorem idx0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- The operand's block at point t, read at (r, k), is the array at row 5000·t + r. -/
theorem blk0_x (c : Dev nD) (t : Fin cfg0.N) (y : S5000x128.Idx) (i : S50000x128.Idx)
    (h0 : (i 0).val = t.val * 5000 + (y 0).val) (h1 : (i 1).val = (y 1).val) :
    iblk0 V c 0 t y = V c main_v53 i := by
  obtain ⟨e0, e1, -, -, -, -, -⟩ := idx0 t
  show V c main_v53 (((cfg0.win 0).blk t).view.emb y) = V c main_v53 i
  refine congrArg _ (funext fun a => Fin.ext ?_)
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- The weight's block is the whole weight. -/
theorem blk0_w (c : Dev nD) (t : Fin cfg0.N) (y : S128x128.Idx) : iblk0 V c 1 t y = V c main_arg7 y := by
  obtain ⟨-, -, e2, e3, -, -, -⟩ := idx0 t
  show V c main_arg7 (((cfg0.win 1).blk t).view.emb y) = V c main_arg7 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The bias's block is the whole bias. -/
theorem blk0_b (c : Dev nD) (t : Fin cfg0.N) (y : S128.Idx) : iblk0 V c 2 t y = V c main_arg8 y := by
  obtain ⟨-, -, -, -, e4, -, -⟩ := idx0 t
  show V c main_arg8 (((cfg0.win 2).blk t).view.emb y) = V c main_arg8 y
  refine congrArg _ (funext fun a => Fin.ext ?_)
  match a with
  | ⟨0, _⟩ => show win0_2.index t (0 : Fin 1) * 128 + 1 * (y 0).val = (y 0).val; omega

theorem hz2 : (![0, 0] : Fin 2 → Nat) = fun _ => 0 := funext fun a => by fin_cases a <;> rfl
theorem hz1 : (![0] : Fin 1 → Nat) = fun _ => 0 := funext fun a => by fin_cases a; rfl

/-- What point t writes back is its block of the dense layer of the arrays as the launch finds them. -/
theorem flushed0_eq (c : Dev nD) (t : Fin cfg0.N) :
    (dat0 V c).flushed 3 t
      = ((cfg0.win 3).blk t).view.read (Elt Ideal) (denseRelu 50000 128 128 (V c main_v53) (V c main_arg7) (V c main_arg8)) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S128x128) hz2, View.ld_unit_zero (S := S128) hz1]
  rw [pay0_eq]
  obtain ⟨-, -, -, -, -, e5, e6⟩ := idx0 t
  funext j
  show denseRelu 5000 128 128 (iblk0 V c 0 t) (iblk0 V c 1 t) (iblk0 V c 2 t) j
    = denseRelu 50000 128 128 (V c main_v53) (V c main_arg7) (V c main_arg8) (((cfg0.win 3).blk t).view.emb j)
  have hj0 : ((((cfg0.win 3).blk t).view.emb j) 0).val = t.val * 5000 + (j 0).val := by
    show win0_3.index t (0 : Fin 2) * 5000 + 1 * (j 0).val = _; omega
  have hj1 : ((((cfg0.win 3).blk t).view.emb j) 1).val = (j 1).val := by
    show win0_3.index t (1 : Fin 2) * 128 + 1 * (j 1).val = _; omega
  generalize ((cfg0.win 3).blk t).view.emb j = i at hj0 hj1
  unfold denseRelu dense
  refine congrArg (max · 0) (congrArg₂ (· + ·) (Finset.sum_congr rfl fun k _ => congrArg₂ (· * ·) ?_ ?_) ?_)
  · exact blk0_x V c t _ _ hj0 rfl
  · rw [blk0_w]; exact congrArg _ (funext fun a => Fin.ext (by
      match a with
      | ⟨0, _⟩ => rfl
      | ⟨1, _⟩ => exact hj1.symm))
  · rw [blk0_b]; exact congrArg _ (funext fun a => Fin.ext (by
      match a with
      | ⟨0, _⟩ => exact hj1.symm))

/-- An index of the result is in point t's block iff its row is one of the block's. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v54).slice (win0_3.rect t)).set ↔ _
  rw [View.set_slice_whole, Rect.mem_set_unit]
  exact Iff.rfl

/-- THE RESULT ARRAY after the launch: the dense layer of the arrays as the launch finds them. -/
theorem arr0 (c : Dev nD) :
    (dat0 V c).arrAt 3 cfg0.N = denseRelu 50000 128 128 (V c main_v53) (V c main_arg7) (V c main_arg8) :=
  (dat0 V c).arrAt_eq_of_cover 3 _ (fun t _ => flushed0_eq V c t) fun i => by
    have hi0 : (i 0).val < 50000 := (i 0).isLt
    have hi1 : (i 1).val < 128 := (i 1).isLt
    have hN : grid0.N = 10 := N_0
    let t : Fin cfg0.N := ⟨(i 0).val / 5000, by show _ < grid0.N; omega⟩
    obtain ⟨-, -, -, -, -, e5, e6⟩ := idx0 t
    refine ⟨t, flush0_3 t, ?_⟩
    rw [mem_blk0]
    intro a
    have ht : t.val = (i 0).val / 5000 := rfl
    match a with
    | ⟨0, _⟩ => show win0_3.index t (0 : Fin 2) * 5000 ≤ (i 0).val ∧ (i 0).val < win0_3.index t (0 : Fin 2) * 5000 + 5000; omega
    | ⟨1, _⟩ => show win0_3.index t (1 : Fin 2) * 128 ≤ (i 1).val ∧ (i 1).val < win0_3.index t (1 : Fin 2) * 128 + 128; omega

end Cert.KernelIdeal.Blocks

end
-- ==== Proof.KernelBlocks1.lean ====
/-
  Launch 1 as a whole-array function.

  The grid has 10 points; point t stages rows 5000·t … 5000·t + 4999 of the [50000, 128] operand, the whole
  [128, 128] weight and the whole bias, and writes back rows 5000·t … 5000·t + 4999 of the [50000, 128] result. A row of the
  dense layer depends only on the same row of the operand, so what point t writes back is its block of the dense
  layer of the whole arrays; the blocks tile the result, which therefore ends holding the dense layer (with max(·, 0)) of
  the arrays as the launch finds them.
-/
import proofs.«154146_j14370960573130_1_alg».proof.Proof.Gen.KernelIdeal.Frame
import proofs.«154146_j14370960573130_1_alg».proof.Proof.KernelDense
import Idealize.ShloMosaic.Lib.Pipeline.Value

set_option maxRecDepth 16384

noncomputable section

namespace Cert.KernelIdeal.Blocks

open Cert.KernelIdeal Cert.KernelIdeal.Gen Cert.KernelIdeal.Body Cert.Net
open Idealize.ShloMosaic Idealize.ShloMosaic.TcCoe Idealize.SL.Sem ValueIdx
open Idealize.ShloMosaic.Pipeline (Dat)

variable (V : (c : Dev nD) → (b : Ref sig .tc) → Buf (Elt Ideal) ((c : Thread nD τ).loc b))

/-- The printed index maps over the grid: the operand's and the result's row block is the point's number, every
    other block index is zero. -/
theorem idx1 : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0 :=
  (by decide +kernel : ∀ t : Fin grid1.N, _)

/-- The operand's block at point t, read at (r, k), is the array at row 5000·t + r. -/
theorem blk1_x (c : Dev nD) (t : Fin cfg1.N) (y : S5000x128.Idx) (i : S50000x128.Idx)
    (h0 : (i 0).val = t.val * 5000 + (y 0).val) (h1 : (i 1).val = (y 1).val) :
    iblk1 V c 0 t y = V c main_v70 i := by
  obtain ⟨e0, e1, -, -, -, -, -⟩ := idx1 t
  show V c main_v70 (((cfg1.win 0).blk t).view.emb y) = V c main_v70 i
  refine congrArg _ (funext fun a => Fin.ext ?_)
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- The weight's block is the whole weight. -/
theorem blk1_w (c : Dev nD) (t : Fin cfg1.N) (y : S128x128.Idx) : iblk1 V c 1 t y = V c main_arg9 y := by
  obtain ⟨-, -, e2, e3, -, -, -⟩ := idx1 t
  show V c main_arg9 (((cfg1.win 1).blk t).view.emb y) = V c main_arg9 y
  refine congrArg _ (funext fun a => Fin.ext ?_)
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- The bias's block is the whole bias. -/
theorem blk1_b (c : Dev nD) (t : Fin cfg1.N) (y : S128.Idx) : iblk1 V c 2 t y = V c main_arg10 y := by
  obtain ⟨-, -, -, -, e4, -, -⟩ := idx1 t
  show V c main_arg10 (((cfg1.win 2).blk t).view.emb y) = V c main_arg10 y
  refine congrArg _ (funext fun a => Fin.ext ?_)
  match a with
  | ⟨0, _⟩ => show win1_2.index t (0 : Fin 1) * 128 + 1 * (y 0).val = (y 0).val; omega

theorem hz2 : (![0, 0] : Fin 2 → Nat) = fun _ => 0 := funext fun a => by fin_cases a <;> rfl
theorem hz1 : (![0] : Fin 1 → Nat) = fun _ => 0 := funext fun a => by fin_cases a; rfl

/-- What point t writes back is its block of the dense layer of the arrays as the launch finds them. -/
theorem flushed1_eq (c : Dev nD) (t : Fin cfg1.N) :
    (dat1 V c).flushed 3 t
      = ((cfg1.win 3).blk t).view.read (Elt Ideal) (denseRelu 50000 128 128 (V c main_v70) (V c main_arg9) (V c main_arg10)) := by
  show (cfg1.win 3).cut (grid1.coords t) ((dat1 V c).after 3 t) = _
  rw [after1_3]
  unfold out1_3
  rw [View.canon_unit_zero hz2]
  simp only [View.ld_unit_zero (S := S5000x128) hz2, View.ld_unit_zero (S := S128x128) hz2, View.ld_unit_zero (S := S128) hz1]
  rw [pay1_eq]
  obtain ⟨-, -, -, -, -, e5, e6⟩ := idx1 t
  funext j
  show denseRelu 5000 128 128 (iblk1 V c 0 t) (iblk1 V c 1 t) (iblk1 V c 2 t) j
    = denseRelu 50000 128 128 (V c main_v70) (V c main_arg9) (V c main_arg10) (((cfg1.win 3).blk t).view.emb j)
  have hj0 : ((((cfg1.win 3).blk t).view.emb j) 0).val = t.val * 5000 + (j 0).val := by
    show win1_3.index t (0 : Fin 2) * 5000 + 1 * (j 0).val = _; omega
  have hj1 : ((((cfg1.win 3).blk t).view.emb j) 1).val = (j 1).val := by
    show win1_3.index t (1 : Fin 2) * 128 + 1 * (j 1).val = _; omega
  generalize ((cfg1.win 3).blk t).view.emb j = i at hj0 hj1
  unfold denseRelu dense
  refine congrArg (max · 0) (congrArg₂ (· + ·) (Finset.sum_congr rfl fun k _ => congrArg₂ (· * ·) ?_ ?_) ?_)
  · exact blk1_x V c t _ _ hj0 rfl
  · rw [blk1_w]; exact congrArg _ (funext fun a => Fin.ext (by
      match a with
      | ⟨0, _⟩ => rfl
      | ⟨1, _⟩ => exact hj1.symm))
  · rw [blk1_b]; exact congrArg _ (funext fun a => Fin.ext (by
      match a with
      | ⟨0, _⟩ => exact hj1.symm))

/-- An index of the result is in point t's block iff its row is one of the block's. -/
theorem mem_blk1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v71).slice (win1_3.rect t)).set ↔ _
  rw [View.set_slice_whole, Rect.mem_set_unit]
  exact Iff.rfl

/-- THE RESULT ARRAY after the launch: the dense layer of the arrays as the launch finds them. -/
theorem arr1 (c : Dev nD) :
    (dat1 V c).arrAt 3 cfg1.N = denseRelu 50000 128 128 (V c main_v70) (V c main_arg9) (V c main_arg10) :=
  (dat1 V c).arrAt_eq_of_cover 3 _ (fun t _ => flushed1_eq V c t) fun i => by
    have hi0 : (i 0).val < 50000 := (i 0).isLt
    have hi1 : (i 1).val < 128 := (i 1).isLt
    have hN : grid1.N = 10 := N_1
    let t : Fin cfg1.N := ⟨(i 0).val / 5000, by show _ < grid1.N; omega⟩
    obtain ⟨-, -, -, -, -, e5, e6⟩ := idx1 t
    refine ⟨t, flush1_3 t, ?_⟩
    rw [mem_blk1]
    intro a
    have ht : t.val = (i 0).val / 5000 := rfl
    match a with
    | ⟨0, _⟩ => show win1_3.index t (0 : Fin 2) * 5000 ≤ (i 0).val ∧ (i 0).val < win1_3.index t (0 : Fin 2) * 5000 + 5000; omega
    | ⟨1, _⟩ => show win1_3.index t (1 : Fin 2) * 128 ≤ (i 1).val ∧ (i 1).val < win1_3.index t (1 : Fin 2) * 128 + 128; omega

end Cert.KernelIdeal.Blocks

end
-- ==== Proof.KernelBlocks2.lean ====
/-
  Launch 2 as a whole-array function.

  The grid has 10 points; point t stages rows 5000·t … 5000·t + 4999 of the [50000, 128] operand, the whole
  [128, 128] weight and the whole bias, and writes back rows 5000·t … 5000·t + 4999 of the [50000, 128] result. A row of the
  dense layer depends only on the same row of the operand, so what point t writes back is its block of the dense
  layer of the whole arrays; the blocks tile the result, which therefore ends holding the dense layer of
  the arrays as the launch finds them.
-/
import proofs.«154146_j14370960573130_1_alg».proof.Proof.Gen.KernelIdeal.Frame
import proofs.«154146_j14370960573130_1_alg».proof.Proof.KernelDense
import Idealize.ShloMosaic.Lib.Pipeline.Value

set_option maxRecDepth 16384

noncomputable section

namespace Cert.KernelIdeal.Blocks

open Cert.KernelIdeal Cert.KernelIdeal.Gen Cert.KernelIdeal.Body Cert.Net
open Idealize.ShloMosaic Idealize.ShloMosaic.TcCoe Idealize.SL.Sem ValueIdx
open Idealize.ShloMosaic.Pipeline (Dat)

variable (V : (c : Dev nD) → (b : Ref sig .tc) → Buf (Elt Ideal) ((c : Thread nD τ).loc b))

/-- The printed index maps over the grid: the operand's and the result's row block is the point's number, every
    other block index is zero. -/
theorem idx2 : ∀ t : Fin cfg2.N, win2_0.index t (0 : Fin 2) = t.val ∧ win2_0.index t (1 : Fin 2) = 0
    ∧ win2_1.index t (0 : Fin 2) = 0 ∧ win2_1.index t (1 : Fin 2) = 0 ∧ win2_2.index t (0 : Fin 1) = 0
    ∧ win2_3.index t (0 : Fin 2) = t.val ∧ win2_3.index t (1 : Fin 2) = 0 :=
  (by decide +kernel : ∀ t : Fin grid2.N, _)

/-- The operand's block at point t, read at (r, k), is the array at row 5000·t + r. -/
theorem blk2_x (c : Dev nD) (t : Fin cfg2.N) (y : S5000x128.Idx) (i : S50000x128.Idx)
    (h0 : (i 0).val = t.val * 5000 + (y 0).val) (h1 : (i 1).val = (y 1).val) :
    iblk2 V c 0 t y = V c main_v87 i := by
  obtain ⟨e0, e1, -, -, -, -, -⟩ := idx2 t
  show V c main_v87 (((cfg2.win 0).blk t).view.emb y) = V c main_v87 i
  refine congrArg _ (funext fun a => Fin.ext ?_)
  match a with
  | ⟨0, _⟩ => show win2_0.index t (0 : Fin 2) * 5000 + 1 * (y 0).val = (i 0).val; omega
  | ⟨1, _⟩ => show win2_0.index t (1 : Fin 2) * 128 + 1 * (y 1).val = (i 1).val; omega

/-- The weight's block is the whole weight. -/
theorem blk2_w (c : Dev nD) (t : Fin cfg2.N) (y : S128x128.Idx) : iblk2 V c 1 t y = V c main_arg11 y := by
  obtain ⟨-, -, e2, e3, -, -, -⟩ := idx2 t
  show V c main_arg11 (((cfg2.win 1).blk t).view.emb y) = V c main_arg11 y
  refine congrArg _ (funext fun a => Fin.ext ?_)
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- The bias's block is the whole bias. -/
theorem blk2_b (c : Dev nD) (t : Fin cfg2.N) (y : S128.Idx) : iblk2 V c 2 t y = V c main_arg12 y := by
  obtain ⟨-, -, -, -, e4, -, -⟩ := idx2 t
  show V c main_arg12 (((cfg2.win 2).blk t).view.emb y) = V c main_arg12 y
  refine congrArg _ (funext fun a => Fin.ext ?_)
  match a with
  | ⟨0, _⟩ => show win2_2.index t (0 : Fin 1) * 128 + 1 * (y 0).val = (y 0).val; omega

theorem hz2 : (![0, 0] : Fin 2 → Nat) = fun _ => 0 := funext fun a => by fin_cases a <;> rfl
theorem hz1 : (![0] : Fin 1 → Nat) = fun _ => 0 := funext fun a => by fin_cases a; rfl

/-- What point t writes back is its block of the dense layer of the arrays as the launch finds them. -/
theorem flushed2_eq (c : Dev nD) (t : Fin cfg2.N) :
    (dat2 V c).flushed 3 t
      = ((cfg2.win 3).blk t).view.read (Elt Ideal) (dense 50000 128 128 (V c main_v87) (V c main_arg11) (V c main_arg12)) := by
  show (cfg2.win 3).cut (grid2.coords t) ((dat2 V c).after 3 t) = _
  rw [after2_3]
  unfold out2_3
  rw [View.canon_unit_zero hz2]
  simp only [View.ld_unit_zero (S := S5000x128) hz2, View.ld_unit_zero (S := S128x128) hz2, View.ld_unit_zero (S := S128) hz1]
  rw [pay2_eq]
  obtain ⟨-, -, -, -, -, e5, e6⟩ := idx2 t
  funext j
  show dense 5000 128 128 (iblk2 V c 0 t) (iblk2 V c 1 t) (iblk2 V c 2 t) j
    = dense 50000 128 128 (V c main_v87) (V c main_arg11) (V c main_arg12) (((cfg2.win 3).blk t).view.emb j)
  have hj0 : ((((cfg2.win 3).blk t).view.emb j) 0).val = t.val * 5000 + (j 0).val := by
    show win2_3.index t (0 : Fin 2) * 5000 + 1 * (j 0).val = _; omega
  have hj1 : ((((cfg2.win 3).blk t).view.emb j) 1).val = (j 1).val := by
    show win2_3.index t (1 : Fin 2) * 128 + 1 * (j 1).val = _; omega
  generalize ((cfg2.win 3).blk t).view.emb j = i at hj0 hj1
  unfold dense
  refine (congrArg₂ (· + ·) (Finset.sum_congr rfl fun k _ => congrArg₂ (· * ·) ?_ ?_) ?_)
  · exact blk2_x V c t _ _ hj0 rfl
  · rw [blk2_w]; exact congrArg _ (funext fun a => Fin.ext (by
      match a with
      | ⟨0, _⟩ => rfl
      | ⟨1, _⟩ => exact hj1.symm))
  · rw [blk2_b]; exact congrArg _ (funext fun a => Fin.ext (by
      match a with
      | ⟨0, _⟩ => exact hj1.symm))

/-- An index of the result is in point t's block iff its row is one of the block's. -/
theorem mem_blk2 (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v88).slice (win2_3.rect t)).set ↔ _
  rw [View.set_slice_whole, Rect.mem_set_unit]
  exact Iff.rfl

/-- THE RESULT ARRAY after the launch: the dense layer of the arrays as the launch finds them. -/
theorem arr2 (c : Dev nD) :
    (dat2 V c).arrAt 3 cfg2.N = dense 50000 128 128 (V c main_v87) (V c main_arg11) (V c main_arg12) :=
  (dat2 V c).arrAt_eq_of_cover 3 _ (fun t _ => flushed2_eq V c t) fun i => by
    have hi0 : (i 0).val < 50000 := (i 0).isLt
    have hi1 : (i 1).val < 128 := (i 1).isLt
    have hN : grid2.N = 10 := N_2
    let t : Fin cfg2.N := ⟨(i 0).val / 5000, by show _ < grid2.N; omega⟩
    obtain ⟨-, -, -, -, -, e5, e6⟩ := idx2 t
    refine ⟨t, flush2_3 t, ?_⟩
    rw [mem_blk2]
    intro a
    have ht : t.val = (i 0).val / 5000 := rfl
    match a with
    | ⟨0, _⟩ => show win2_3.index t (0 : Fin 2) * 5000 ≤ (i 0).val ∧ (i 0).val < win2_3.index t (0 : Fin 2) * 5000 + 5000; omega
    | ⟨1, _⟩ => show win2_3.index t (1 : Fin 2) * 128 ≤ (i 1).val ∧ (i 1).val < win2_3.index t (1 : Fin 2) * 128 + 128; omega

end Cert.KernelIdeal.Blocks

end
-- ==== Proof.KernelBlocks3.lean ====
/-
  Launch 3 as a whole-array function.

  The grid has 1 point; point t stages rows 0 … 511 of the [512, 128] operand, the whole
  [128, 128] weight and the whole bias, and writes back rows 0 … 511 of the [512, 128] result. A row of the
  dense layer depends only on the same row of the operand, so what point t writes back is its block of the dense
  layer of the whole arrays; the blocks tile the result, which therefore ends holding the dense layer (with max(·, 0)) of
  the arrays as the launch finds them.
-/
import proofs.«154146_j14370960573130_1_alg».proof.Proof.Gen.KernelIdeal.Frame
import proofs.«154146_j14370960573130_1_alg».proof.Proof.KernelDense
import Idealize.ShloMosaic.Lib.Pipeline.Value

set_option maxRecDepth 16384

noncomputable section

namespace Cert.KernelIdeal.Blocks

open Cert.KernelIdeal Cert.KernelIdeal.Gen Cert.KernelIdeal.Body Cert.Net
open Idealize.ShloMosaic Idealize.ShloMosaic.TcCoe Idealize.SL.Sem ValueIdx
open Idealize.ShloMosaic.Pipeline (Dat)

variable (V : (c : Dev nD) → (b : Ref sig .tc) → Buf (Elt Ideal) ((c : Thread nD τ).loc b))

/-- The printed index maps over the grid: the operand's and the result's row block is the point's number, every
    other block index is zero. -/
theorem idx3 : ∀ t : Fin cfg3.N, win3_0.index t (0 : Fin 2) = t.val ∧ win3_0.index t (1 : Fin 2) = 0
    ∧ win3_1.index t (0 : Fin 2) = 0 ∧ win3_1.index t (1 : Fin 2) = 0 ∧ win3_2.index t (0 : Fin 1) = 0
    ∧ win3_3.index t (0 : Fin 2) = t.val ∧ win3_3.index t (1 : Fin 2) = 0 :=
  (by decide +kernel : ∀ t : Fin grid3.N, _)

/-- The operand's block at point t, read at (r, k), is the array at row 512·t + r. -/
theorem blk3_x (c : Dev nD) (t : Fin cfg3.N) (y : S512x128.Idx) (i : S512x128.Idx)
    (h0 : (i 0).val = t.val * 512 + (y 0).val) (h1 : (i 1).val = (y 1).val) :
    iblk3 V c 0 t y = V c main_v91 i := by
  obtain ⟨e0, e1, -, -, -, -, -⟩ := idx3 t
  show V c main_v91 (((cfg3.win 0).blk t).view.emb y) = V c main_v91 i
  refine congrArg _ (funext fun a => Fin.ext ?_)
  match a with
  | ⟨0, _⟩ => show win3_0.index t (0 : Fin 2) * 512 + 1 * (y 0).val = (i 0).val; omega
  | ⟨1, _⟩ => show win3_0.index t (1 : Fin 2) * 128 + 1 * (y 1).val = (i 1).val; omega

/-- The weight's block is the whole weight. -/
theorem blk3_w (c : Dev nD) (t : Fin cfg3.N) (y : S128x128.Idx) : iblk3 V c 1 t y = V c main_arg13 y := by
  obtain ⟨-, -, e2, e3, -, -, -⟩ := idx3 t
  show V c main_arg13 (((cfg3.win 1).blk t).view.emb y) = V c main_arg13 y
  refine congrArg _ (funext fun a => Fin.ext ?_)
  match a with
  | ⟨0, _⟩ => show win3_1.index t (0 : Fin 2) * 128 + 1 * (y 0).val = (y 0).val; omega
  | ⟨1, _⟩ => show win3_1.index t (1 : Fin 2) * 128 + 1 * (y 1).val = (y 1).val; omega

/-- The bias's block is the whole bias. -/
theorem blk3_b (c : Dev nD) (t : Fin cfg3.N) (y : S128.Idx) : iblk3 V c 2 t y = V c main_arg14 y := by
  obtain ⟨-, -, -, -, e4, -, -⟩ := idx3 t
  show V c main_arg14 (((cfg3.win 2).blk t).view.emb y) = V c main_arg14 y
  refine congrArg _ (funext fun a => Fin.ext ?_)
  match a with
  | ⟨0, _⟩ => show win3_2.index t (0 : Fin 1) * 128 + 1 * (y 0).val = (y 0).val; omega

theorem hz2 : (![0, 0] : Fin 2 → Nat) = fun _ => 0 := funext fun a => by fin_cases a <;> rfl
theorem hz1 : (![0] : Fin 1 → Nat) = fun _ => 0 := funext fun a => by fin_cases a; rfl

/-- What point t writes back is its block of the dense layer of the arrays as the launch finds them. -/
theorem flushed3_eq (c : Dev nD) (t : Fin cfg3.N) :
    (dat3 V c).flushed 3 t
      = ((cfg3.win 3).blk t).view.read (Elt Ideal) (denseRelu 512 128 128 (V c main_v91) (V c main_arg13) (V c main_arg14)) := by
  show (cfg3.win 3).cut (grid3.coords t) ((dat3 V c).after 3 t) = _
  rw [after3_3]
  unfold out3_3
  rw [View.canon_unit_zero hz2]
  simp only [View.ld_unit_zero (S := S512x128) hz2, View.ld_unit_zero (S := S128x128) hz2, View.ld_unit_zero (S := S128) hz1]
  rw [pay3_eq]
  obtain ⟨-, -, -, -, -, e5, e6⟩ := idx3 t
  funext j
  show denseRelu 512 128 128 (iblk3 V c 0 t) (iblk3 V c 1 t) (iblk3 V c 2 t) j
    = denseRelu 512 128 128 (V c main_v91) (V c main_arg13) (V c main_arg14) (((cfg3.win 3).blk t).view.emb j)
  have hj0 : ((((cfg3.win 3).blk t).view.emb j) 0).val = t.val * 512 + (j 0).val := by
    show win3_3.index t (0 : Fin 2) * 512 + 1 * (j 0).val = _; omega
  have hj1 : ((((cfg3.win 3).blk t).view.emb j) 1).val = (j 1).val := by
    show win3_3.index t (1 : Fin 2) * 128 + 1 * (j 1).val = _; omega
  generalize ((cfg3.win 3).blk t).view.emb j = i at hj0 hj1
  unfold denseRelu dense
  refine congrArg (max · 0) (congrArg₂ (· + ·) (Finset.sum_congr rfl fun k _ => congrArg₂ (· * ·) ?_ ?_) ?_)
  · exact blk3_x V c t _ _ hj0 rfl
  · rw [blk3_w]; exact congrArg _ (funext fun a => Fin.ext (by
      match a with
      | ⟨0, _⟩ => rfl
      | ⟨1, _⟩ => exact hj1.symm))
  · rw [blk3_b]; exact congrArg _ (funext fun a => Fin.ext (by
      match a with
      | ⟨0, _⟩ => exact hj1.symm))

/-- An index of the result is in point t's block iff its row is one of the block's. -/
theorem mem_blk3 (t : Fin cfg3.N) (i : S512x128.Idx) :
    i ∈ ((cfg3.win 3).blk t).view.set ↔ ∀ a : Fin 2, win3_3.index t a * S512x128.size a ≤ (i a).val ∧ (i a).val < win3_3.index t a * S512x128.size a + S512x128.size a := by
  show i ∈ ((View.whole main_v92).slice (win3_3.rect t)).set ↔ _
  rw [View.set_slice_whole, Rect.mem_set_unit]
  exact Iff.rfl

/-- THE RESULT ARRAY after the launch: the dense layer of the arrays as the launch finds them. -/
theorem arr3 (c : Dev nD) :
    (dat3 V c).arrAt 3 cfg3.N = denseRelu 512 128 128 (V c main_v91) (V c main_arg13) (V c main_arg14) :=
  (dat3 V c).arrAt_eq_of_cover 3 _ (fun t _ => flushed3_eq V c t) fun i => by
    have hi0 : (i 0).val < 512 := (i 0).isLt
    have hi1 : (i 1).val < 128 := (i 1).isLt
    have hN : grid3.N = 1 := N_3
    let t : Fin cfg3.N := ⟨(i 0).val / 512, by show _ < grid3.N; omega⟩
    obtain ⟨-, -, -, -, -, e5, e6⟩ := idx3 t
    refine ⟨t, flush3_3 t, ?_⟩
    rw [mem_blk3]
    intro a
    have ht : t.val = (i 0).val / 512 := rfl
    match a with
    | ⟨0, _⟩ => show win3_3.index t (0 : Fin 2) * 512 ≤ (i 0).val ∧ (i 0).val < win3_3.index t (0 : Fin 2) * 512 + 512; omega
    | ⟨1, _⟩ => show win3_3.index t (1 : Fin 2) * 128 ≤ (i 1).val ∧ (i 1).val < win3_3.index t (1 : Fin 2) * 128 + 128; omega

end Cert.KernelIdeal.Blocks

end
-- ==== Proof.KernelBlocks4.lean ====
/-
  Launch 4 as a whole-array function.

  The grid has 1 point; point t stages rows 0 … 511 of the [512, 128] operand, the whole
  [128, 200] weight and the whole bias, and writes back rows 0 … 511 of the [512, 200] result. A row of the
  dense layer depends only on the same row of the operand, so what point t writes back is its block of the dense
  layer of the whole arrays; the blocks tile the result, which therefore ends holding the dense layer of
  the arrays as the launch finds them.
-/
import proofs.«154146_j14370960573130_1_alg».proof.Proof.Gen.KernelIdeal.Frame
import proofs.«154146_j14370960573130_1_alg».proof.Proof.KernelDense
import Idealize.ShloMosaic.Lib.Pipeline.Value

set_option maxRecDepth 16384

noncomputable section

namespace Cert.KernelIdeal.Blocks

open Cert.KernelIdeal Cert.KernelIdeal.Gen Cert.KernelIdeal.Body Cert.Net
open Idealize.ShloMosaic Idealize.ShloMosaic.TcCoe Idealize.SL.Sem ValueIdx
open Idealize.ShloMosaic.Pipeline (Dat)

variable (V : (c : Dev nD) → (b : Ref sig .tc) → Buf (Elt Ideal) ((c : Thread nD τ).loc b))

/-- The printed index maps over the grid: the operand's and the result's row block is the point's number, every
    other block index is zero. -/
theorem idx4 : ∀ t : Fin cfg4.N, win4_0.index t (0 : Fin 2) = t.val ∧ win4_0.index t (1 : Fin 2) = 0
    ∧ win4_1.index t (0 : Fin 2) = 0 ∧ win4_1.index t (1 : Fin 2) = 0 ∧ win4_2.index t (0 : Fin 1) = 0
    ∧ win4_3.index t (0 : Fin 2) = t.val ∧ win4_3.index t (1 : Fin 2) = 0 :=
  (by decide +kernel : ∀ t : Fin grid4.N, _)

/-- The operand's block at point t, read at (r, k), is the array at row 512·t + r. -/
theorem blk4_x (c : Dev nD) (t : Fin cfg4.N) (y : S512x128.Idx) (i : S512x128.Idx)
    (h0 : (i 0).val = t.val * 512 + (y 0).val) (h1 : (i 1).val = (y 1).val) :
    iblk4 V c 0 t y = V c main_v92 i := by
  obtain ⟨e0, e1, -, -, -, -, -⟩ := idx4 t
  show V c main_v92 (((cfg4.win 0).blk t).view.emb y) = V c main_v92 i
  refine congrArg _ (funext fun a => Fin.ext ?_)
  match a with
  | ⟨0, _⟩ => show win4_0.index t (0 : Fin 2) * 512 + 1 * (y 0).val = (i 0).val; omega
  | ⟨1, _⟩ => show win4_0.index t (1 : Fin 2) * 128 + 1 * (y 1).val = (i 1).val; omega

/-- The weight's block is the whole weight. -/
theorem blk4_w (c : Dev nD) (t : Fin cfg4.N) (y : S128x200.Idx) : iblk4 V c 1 t y = V c main_arg15 y := by
  obtain ⟨-, -, e2, e3, -, -, -⟩ := idx4 t
  show V c main_arg15 (((cfg4.win 1).blk t).view.emb y) = V c main_arg15 y
  refine congrArg _ (funext fun a => Fin.ext ?_)
  match a with
  | ⟨0, _⟩ => show win4_1.index t (0 : Fin 2) * 128 + 1 * (y 0).val = (y 0).val; omega
  | ⟨1, _⟩ => show win4_1.index t (1 : Fin 2) * 200 + 1 * (y 1).val = (y 1).val; omega

/-- The bias's block is the whole bias. -/
theorem blk4_b (c : Dev nD) (t : Fin cfg4.N) (y : S200.Idx) : iblk4 V c 2 t y = V c main_arg16 y := by
  obtain ⟨-, -, -, -, e4, -, -⟩ := idx4 t
  show V c main_arg16 (((cfg4.win 2).blk t).view.emb y) = V c main_arg16 y
  refine congrArg _ (funext fun a => Fin.ext ?_)
  match a with
  | ⟨0, _⟩ => show win4_2.index t (0 : Fin 1) * 200 + 1 * (y 0).val = (y 0).val; omega

theorem hz2 : (![0, 0] : Fin 2 → Nat) = fun _ => 0 := funext fun a => by fin_cases a <;> rfl
theorem hz1 : (![0] : Fin 1 → Nat) = fun _ => 0 := funext fun a => by fin_cases a; rfl

/-- What point t writes back is its block of the dense layer of the arrays as the launch finds them. -/
theorem flushed4_eq (c : Dev nD) (t : Fin cfg4.N) :
    (dat4 V c).flushed 3 t
      = ((cfg4.win 3).blk t).view.read (Elt Ideal) (dense 512 128 200 (V c main_v92) (V c main_arg15) (V c main_arg16)) := by
  show (cfg4.win 3).cut (grid4.coords t) ((dat4 V c).after 3 t) = _
  rw [after4_3]
  unfold out4_3
  rw [View.canon_unit_zero hz2]
  simp only [View.ld_unit_zero (S := S512x128) hz2, View.ld_unit_zero (S := S128x200) hz2, View.ld_unit_zero (S := S200) hz1]
  rw [pay4_eq]
  obtain ⟨-, -, -, -, -, e5, e6⟩ := idx4 t
  funext j
  show dense 512 128 200 (iblk4 V c 0 t) (iblk4 V c 1 t) (iblk4 V c 2 t) j
    = dense 512 128 200 (V c main_v92) (V c main_arg15) (V c main_arg16) (((cfg4.win 3).blk t).view.emb j)
  have hj0 : ((((cfg4.win 3).blk t).view.emb j) 0).val = t.val * 512 + (j 0).val := by
    show win4_3.index t (0 : Fin 2) * 512 + 1 * (j 0).val = _; omega
  have hj1 : ((((cfg4.win 3).blk t).view.emb j) 1).val = (j 1).val := by
    show win4_3.index t (1 : Fin 2) * 200 + 1 * (j 1).val = _; omega
  generalize ((cfg4.win 3).blk t).view.emb j = i at hj0 hj1
  unfold dense
  refine (congrArg₂ (· + ·) (Finset.sum_congr rfl fun k _ => congrArg₂ (· * ·) ?_ ?_) ?_)
  · exact blk4_x V c t _ _ hj0 rfl
  · rw [blk4_w]; exact congrArg _ (funext fun a => Fin.ext (by
      match a with
      | ⟨0, _⟩ => rfl
      | ⟨1, _⟩ => exact hj1.symm))
  · rw [blk4_b]; exact congrArg _ (funext fun a => Fin.ext (by
      match a with
      | ⟨0, _⟩ => exact hj1.symm))

/-- An index of the result is in point t's block iff its row is one of the block's. -/
theorem mem_blk4 (t : Fin cfg4.N) (i : S512x200.Idx) :
    i ∈ ((cfg4.win 3).blk t).view.set ↔ ∀ a : Fin 2, win4_3.index t a * S512x200.size a ≤ (i a).val ∧ (i a).val < win4_3.index t a * S512x200.size a + S512x200.size a := by
  show i ∈ ((View.whole main_v93).slice (win4_3.rect t)).set ↔ _
  rw [View.set_slice_whole, Rect.mem_set_unit]
  exact Iff.rfl

/-- THE RESULT ARRAY after the launch: the dense layer of the arrays as the launch finds them. -/
theorem arr4 (c : Dev nD) :
    (dat4 V c).arrAt 3 cfg4.N = dense 512 128 200 (V c main_v92) (V c main_arg15) (V c main_arg16) :=
  (dat4 V c).arrAt_eq_of_cover 3 _ (fun t _ => flushed4_eq V c t) fun i => by
    have hi0 : (i 0).val < 512 := (i 0).isLt
    have hi1 : (i 1).val < 200 := (i 1).isLt
    have hN : grid4.N = 1 := N_4
    let t : Fin cfg4.N := ⟨(i 0).val / 512, by show _ < grid4.N; omega⟩
    obtain ⟨-, -, -, -, -, e5, e6⟩ := idx4 t
    refine ⟨t, flush4_3 t, ?_⟩
    rw [mem_blk4]
    intro a
    have ht : t.val = (i 0).val / 512 := rfl
    match a with
    | ⟨0, _⟩ => show win4_3.index t (0 : Fin 2) * 512 ≤ (i 0).val ∧ (i 0).val < win4_3.index t (0 : Fin 2) * 512 + 512; omega
    | ⟨1, _⟩ => show win4_3.index t (1 : Fin 2) * 200 ≤ (i 1).val ∧ (i 1).val < win4_3.index t (1 : Fin 2) * 200 + 200; omega

end Cert.KernelIdeal.Blocks

end
-- ==== Proof.KernelFold.lean ====
/-
  The idealized kernel program's result as the network of its arguments.

  The program's buffer contents are a fold through nine segments: a stretch of host operations, a launch, a
  stretch, a launch, … . Read at the buffers that matter, the fold is the network: the first stretch computes the
  embedded features, the two degree normalisers and the first normalised aggregation; each of the first three
  launches leaves a dense layer of what the stretch before it computed (the launches' whole-array functions); the
  stretches between them aggregate again, reading the normalisers and the edge lists, which no launch and no later
  operation overwrites; the last stretch pools; the last two launches are the head's dense layers. An argument
  array is never written, so at every boundary it is what the program was launched with.
-/
import proofs.«154146_j14370960573130_1_alg».proof.Proof.Gen.KernelIdeal.Frame
import proofs.«154146_j14370960573130_1_alg».proof.Proof.Net
import proofs.«154146_j14370960573130_1_alg».proof.Proof.KernelBlocks0
import proofs.«154146_j14370960573130_1_alg».proof.Proof.KernelBlocks1
import proofs.«154146_j14370960573130_1_alg».proof.Proof.KernelBlocks2
import proofs.«154146_j14370960573130_1_alg».proof.Proof.KernelBlocks3
import proofs.«154146_j14370960573130_1_alg».proof.Proof.KernelBlocks4
import Idealize.ShloMosaic.Lib.StableHlo.Run

set_option maxRecDepth 16384

noncomputable section

namespace Cert.KernelIdeal.Fold

open Cert.KernelIdeal Cert.KernelIdeal.Gen Cert.Net
open Idealize.ShloMosaic Idealize.ShloMosaic.TcCoe Idealize.SL.Sem Idealize.ShloMosaic.StableHlo

variable (m : (ℓ : Loc nD τ sig) → Buf (Elt Ideal) ℓ) (ρ : Dev nD → PrngReg)

/-- No operation of a stretch writes the buffer: the fold over the stretch leaves it as it was. -/
macro "not_written" : tactic => `(tactic| (
  refine StableHlo.after_of_forall_not_mem _ _ (List.forall_iff_forall_mem.mp ?_)
  simp only [hostOps0, hostOps1, hostOps2, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The arguments at the boundaries where something reads them -/

theorem k1_arg2 (c : Dev nD) : W1 m ρ c (Proc.devRef .tc main_arg2) = m ((c : Thread nD τ).loc main_arg2) :=
  (show W1 m ρ c (Proc.devRef .tc main_arg2) = W0 m ρ c (Proc.devRef .tc main_arg2) from by not_written).trans rfl
theorem k2_arg2 (c : Dev nD) : W2 m ρ c (Proc.devRef .tc main_arg2) = m ((c : Thread nD τ).loc main_arg2) :=
  (W2_of_ne m ρ c main_arg2 (by decide)).trans (k1_arg2 m ρ c)
theorem k3_arg2 (c : Dev nD) : W3 m ρ c (Proc.devRef .tc main_arg2) = m ((c : Thread nD τ).loc main_arg2) :=
  (show W3 m ρ c (Proc.devRef .tc main_arg2) = W2 m ρ c (Proc.devRef .tc main_arg2) from by not_written).trans (k2_arg2 m ρ c)
theorem k4_arg2 (c : Dev nD) : W4 m ρ c (Proc.devRef .tc main_arg2) = m ((c : Thread nD τ).loc main_arg2) :=
  (W4_of_ne m ρ c main_arg2 (by decide)).trans (k3_arg2 m ρ c)
theorem k1_arg3 (c : Dev nD) : W1 m ρ c (Proc.devRef .tc main_arg3) = m ((c : Thread nD τ).loc main_arg3) :=
  (show W1 m ρ c (Proc.devRef .tc main_arg3) = W0 m ρ c (Proc.devRef .tc main_arg3) from by not_written).trans rfl
theorem k2_arg3 (c : Dev nD) : W2 m ρ c (Proc.devRef .tc main_arg3) = m ((c : Thread nD τ).loc main_arg3) :=
  (W2_of_ne m ρ c main_arg3 (by decide)).trans (k1_arg3 m ρ c)
theorem k3_arg3 (c : Dev nD) : W3 m ρ c (Proc.devRef .tc main_arg3) = m ((c : Thread nD τ).loc main_arg3) :=
  (show W3 m ρ c (Proc.devRef .tc main_arg3) = W2 m ρ c (Proc.devRef .tc main_arg3) from by not_written).trans (k2_arg3 m ρ c)
theorem k4_arg3 (c : Dev nD) : W4 m ρ c (Proc.devRef .tc main_arg3) = m ((c : Thread nD τ).loc main_arg3) :=
  (W4_of_ne m ρ c main_arg3 (by decide)).trans (k3_arg3 m ρ c)
theorem k1_arg4 (c : Dev nD) : W1 m ρ c (Proc.devRef .tc main_arg4) = m ((c : Thread nD τ).loc main_arg4) :=
  (show W1 m ρ c (Proc.devRef .tc main_arg4) = W0 m ρ c (Proc.devRef .tc main_arg4) from by not_written).trans rfl
theorem k2_arg4 (c : Dev nD) : W2 m ρ c (Proc.devRef .tc main_arg4) = m ((c : Thread nD τ).loc main_arg4) :=
  (W2_of_ne m ρ c main_arg4 (by decide)).trans (k1_arg4 m ρ c)
theorem k3_arg4 (c : Dev nD) : W3 m ρ c (Proc.devRef .tc main_arg4) = m ((c : Thread nD τ).loc main_arg4) :=
  (show W3 m ρ c (Proc.devRef .tc main_arg4) = W2 m ρ c (Proc.devRef .tc main_arg4) from by not_written).trans (k2_arg4 m ρ c)
theorem k4_arg4 (c : Dev nD) : W4 m ρ c (Proc.devRef .tc main_arg4) = m ((c : Thread nD τ).loc main_arg4) :=
  (W4_of_ne m ρ c main_arg4 (by decide)).trans (k3_arg4 m ρ c)
theorem k5_arg4 (c : Dev nD) : W5 m ρ c (Proc.devRef .tc main_arg4) = m ((c : Thread nD τ).loc main_arg4) :=
  (show W5 m ρ c (Proc.devRef .tc main_arg4) = W4 m ρ c (Proc.devRef .tc main_arg4) from by not_written).trans (k4_arg4 m ρ c)
theorem k6_arg4 (c : Dev nD) : W6 m ρ c (Proc.devRef .tc main_arg4) = m ((c : Thread nD τ).loc main_arg4) :=
  (W6_of_ne m ρ c main_arg4 (by decide)).trans (k5_arg4 m ρ c)
theorem k1_arg7 (c : Dev nD) : W1 m ρ c (Proc.devRef .tc main_arg7) = m ((c : Thread nD τ).loc main_arg7) :=
  (show W1 m ρ c (Proc.devRef .tc main_arg7) = W0 m ρ c (Proc.devRef .tc main_arg7) from by not_written).trans rfl
theorem k1_arg8 (c : Dev nD) : W1 m ρ c (Proc.devRef .tc main_arg8) = m ((c : Thread nD τ).loc main_arg8) :=
  (show W1 m ρ c (Proc.devRef .tc main_arg8) = W0 m ρ c (Proc.devRef .tc main_arg8) from by not_written).trans rfl
theorem k1_arg9 (c : Dev nD) : W1 m ρ c (Proc.devRef .tc main_arg9) = m ((c : Thread nD τ).loc main_arg9) :=
  (show W1 m ρ c (Proc.devRef .tc main_arg9) = W0 m ρ c (Proc.devRef .tc main_arg9) from by not_written).trans rfl
theorem k2_arg9 (c : Dev nD) : W2 m ρ c (Proc.devRef .tc main_arg9) = m ((c : Thread nD τ).loc main_arg9) :=
  (W2_of_ne m ρ c main_arg9 (by decide)).trans (k1_arg9 m ρ c)
theorem k3_arg9 (c : Dev nD) : W3 m ρ c (Proc.devRef .tc main_arg9) = m ((c : Thread nD τ).loc main_arg9) :=
  (show W3 m ρ c (Proc.devRef .tc main_arg9) = W2 m ρ c (Proc.devRef .tc main_arg9) from by not_written).trans (k2_arg9 m ρ c)
theorem k1_arg10 (c : Dev nD) : W1 m ρ c (Proc.devRef .tc main_arg10) = m ((c : Thread nD τ).loc main_arg10) :=
  (show W1 m ρ c (Proc.devRef .tc main_arg10) = W0 m ρ c (Proc.devRef .tc main_arg10) from by not_written).trans rfl
theorem k2_arg10 (c : Dev nD) : W2 m ρ c (Proc.devRef .tc main_arg10) = m ((c : Thread nD τ).loc main_arg10) :=
  (W2_of_ne m ρ c main_arg10 (by decide)).trans (k1_arg10 m ρ c)
theorem k3_arg10 (c : Dev nD) : W3 m ρ c (Proc.devRef .tc main_arg10) = m ((c : Thread nD τ).loc main_arg10) :=
  (show W3 m ρ c (Proc.devRef .tc main_arg10) = W2 m ρ c (Proc.devRef .tc main_arg10) from by not_written).trans (k2_arg10 m ρ c)
theorem k1_arg11 (c : Dev nD) : W1 m ρ c (Proc.devRef .tc main_arg11) = m ((c : Thread nD τ).loc main_arg11) :=
  (show W1 m ρ c (Proc.devRef .tc main_arg11) = W0 m ρ c (Proc.devRef .tc main_arg11) from by not_written).trans rfl
theorem k2_arg11 (c : Dev nD) : W2 m ρ c (Proc.devRef .tc main_arg11) = m ((c : Thread nD τ).loc main_arg11) :=
  (W2_of_ne m ρ c main_arg11 (by decide)).trans (k1_arg11 m ρ c)
theorem k3_arg11 (c : Dev nD) : W3 m ρ c (Proc.devRef .tc main_arg11) = m ((c : Thread nD τ).loc main_arg11) :=
  (show W3 m ρ c (Proc.devRef .tc main_arg11) = W2 m ρ c (Proc.devRef .tc main_arg11) from by not_written).trans (k2_arg11 m ρ c)
theorem k4_arg11 (c : Dev nD) : W4 m ρ c (Proc.devRef .tc main_arg11) = m ((c : Thread nD τ).loc main_arg11) :=
  (W4_of_ne m ρ c main_arg11 (by decide)).trans (k3_arg11 m ρ c)
theorem k5_arg11 (c : Dev nD) : W5 m ρ c (Proc.devRef .tc main_arg11) = m ((c : Thread nD τ).loc main_arg11) :=
  (show W5 m ρ c (Proc.devRef .tc main_arg11) = W4 m ρ c (Proc.devRef .tc main_arg11) from by not_written).trans (k4_arg11 m ρ c)
theorem k1_arg12 (c : Dev nD) : W1 m ρ c (Proc.devRef .tc main_arg12) = m ((c : Thread nD τ).loc main_arg12) :=
  (show W1 m ρ c (Proc.devRef .tc main_arg12) = W0 m ρ c (Proc.devRef .tc main_arg12) from by not_written).trans rfl
theorem k2_arg12 (c : Dev nD) : W2 m ρ c (Proc.devRef .tc main_arg12) = m ((c : Thread nD τ).loc main_arg12) :=
  (W2_of_ne m ρ c main_arg12 (by decide)).trans (k1_arg12 m ρ c)
theorem k3_arg12 (c : Dev nD) : W3 m ρ c (Proc.devRef .tc main_arg12) = m ((c : Thread nD τ).loc main_arg12) :=
  (show W3 m ρ c (Proc.devRef .tc main_arg12) = W2 m ρ c (Proc.devRef .tc main_arg12) from by not_written).trans (k2_arg12 m ρ c)
theorem k4_arg12 (c : Dev nD) : W4 m ρ c (Proc.devRef .tc main_arg12) = m ((c : Thread nD τ).loc main_arg12) :=
  (W4_of_ne m ρ c main_arg12 (by decide)).trans (k3_arg12 m ρ c)
theorem k5_arg12 (c : Dev nD) : W5 m ρ c (Proc.devRef .tc main_arg12) = m ((c : Thread nD τ).loc main_arg12) :=
  (show W5 m ρ c (Proc.devRef .tc main_arg12) = W4 m ρ c (Proc.devRef .tc main_arg12) from by not_written).trans (k4_arg12 m ρ c)
theorem k1_arg13 (c : Dev nD) : W1 m ρ c (Proc.devRef .tc main_arg13) = m ((c : Thread nD τ).loc main_arg13) :=
  (show W1 m ρ c (Proc.devRef .tc main_arg13) = W0 m ρ c (Proc.devRef .tc main_arg13) from by not_written).trans rfl
theorem k2_arg13 (c : Dev nD) : W2 m ρ c (Proc.devRef .tc main_arg13) = m ((c : Thread nD τ).loc main_arg13) :=
  (W2_of_ne m ρ c main_arg13 (by decide)).trans (k1_arg13 m ρ c)
theorem k3_arg13 (c : Dev nD) : W3 m ρ c (Proc.devRef .tc main_arg13) = m ((c : Thread nD τ).loc main_arg13) :=
  (show W3 m ρ c (Proc.devRef .tc main_arg13) = W2 m ρ c (Proc.devRef .tc main_arg13) from by not_written).trans (k2_arg13 m ρ c)
theorem k4_arg13 (c : Dev nD) : W4 m ρ c (Proc.devRef .tc main_arg13) = m ((c : Thread nD τ).loc main_arg13) :=
  (W4_of_ne m ρ c main_arg13 (by decide)).trans (k3_arg13 m ρ c)
theorem k5_arg13 (c : Dev nD) : W5 m ρ c (Proc.devRef .tc main_arg13) = m ((c : Thread nD τ).loc main_arg13) :=
  (show W5 m ρ c (Proc.devRef .tc main_arg13) = W4 m ρ c (Proc.devRef .tc main_arg13) from by not_written).trans (k4_arg13 m ρ c)
theorem k6_arg13 (c : Dev nD) : W6 m ρ c (Proc.devRef .tc main_arg13) = m ((c : Thread nD τ).loc main_arg13) :=
  (W6_of_ne m ρ c main_arg13 (by decide)).trans (k5_arg13 m ρ c)
theorem k7_arg13 (c : Dev nD) : W7 m ρ c (Proc.devRef .tc main_arg13) = m ((c : Thread nD τ).loc main_arg13) :=
  (show W7 m ρ c (Proc.devRef .tc main_arg13) = W6 m ρ c (Proc.devRef .tc main_arg13) from by not_written).trans (k6_arg13 m ρ c)
theorem k1_arg14 (c : Dev nD) : W1 m ρ c (Proc.devRef .tc main_arg14) = m ((c : Thread nD τ).loc main_arg14) :=
  (show W1 m ρ c (Proc.devRef .tc main_arg14) = W0 m ρ c (Proc.devRef .tc main_arg14) from by not_written).trans rfl
theorem k2_arg14 (c : Dev nD) : W2 m ρ c (Proc.devRef .tc main_arg14) = m ((c : Thread nD τ).loc main_arg14) :=
  (W2_of_ne m ρ c main_arg14 (by decide)).trans (k1_arg14 m ρ c)
theorem k3_arg14 (c : Dev nD) : W3 m ρ c (Proc.devRef .tc main_arg14) = m ((c : Thread nD τ).loc main_arg14) :=
  (show W3 m ρ c (Proc.devRef .tc main_arg14) = W2 m ρ c (Proc.devRef .tc main_arg14) from by not_written).trans (k2_arg14 m ρ c)
theorem k4_arg14 (c : Dev nD) : W4 m ρ c (Proc.devRef .tc main_arg14) = m ((c : Thread nD τ).loc main_arg14) :=
  (W4_of_ne m ρ c main_arg14 (by decide)).trans (k3_arg14 m ρ c)
theorem k5_arg14 (c : Dev nD) : W5 m ρ c (Proc.devRef .tc main_arg14) = m ((c : Thread nD τ).loc main_arg14) :=
  (show W5 m ρ c (Proc.devRef .tc main_arg14) = W4 m ρ c (Proc.devRef .tc main_arg14) from by not_written).trans (k4_arg14 m ρ c)
theorem k6_arg14 (c : Dev nD) : W6 m ρ c (Proc.devRef .tc main_arg14) = m ((c : Thread nD τ).loc main_arg14) :=
  (W6_of_ne m ρ c main_arg14 (by decide)).trans (k5_arg14 m ρ c)
theorem k7_arg14 (c : Dev nD) : W7 m ρ c (Proc.devRef .tc main_arg14) = m ((c : Thread nD τ).loc main_arg14) :=
  (show W7 m ρ c (Proc.devRef .tc main_arg14) = W6 m ρ c (Proc.devRef .tc main_arg14) from by not_written).trans (k6_arg14 m ρ c)
theorem k1_arg15 (c : Dev nD) : W1 m ρ c (Proc.devRef .tc main_arg15) = m ((c : Thread nD τ).loc main_arg15) :=
  (show W1 m ρ c (Proc.devRef .tc main_arg15) = W0 m ρ c (Proc.devRef .tc main_arg15) from by not_written).trans rfl
theorem k2_arg15 (c : Dev nD) : W2 m ρ c (Proc.devRef .tc main_arg15) = m ((c : Thread nD τ).loc main_arg15) :=
  (W2_of_ne m ρ c main_arg15 (by decide)).trans (k1_arg15 m ρ c)
theorem k3_arg15 (c : Dev nD) : W3 m ρ c (Proc.devRef .tc main_arg15) = m ((c : Thread nD τ).loc main_arg15) :=
  (show W3 m ρ c (Proc.devRef .tc main_arg15) = W2 m ρ c (Proc.devRef .tc main_arg15) from by not_written).trans (k2_arg15 m ρ c)
theorem k4_arg15 (c : Dev nD) : W4 m ρ c (Proc.devRef .tc main_arg15) = m ((c : Thread nD τ).loc main_arg15) :=
  (W4_of_ne m ρ c main_arg15 (by decide)).trans (k3_arg15 m ρ c)
theorem k5_arg15 (c : Dev nD) : W5 m ρ c (Proc.devRef .tc main_arg15) = m ((c : Thread nD τ).loc main_arg15) :=
  (show W5 m ρ c (Proc.devRef .tc main_arg15) = W4 m ρ c (Proc.devRef .tc main_arg15) from by not_written).trans (k4_arg15 m ρ c)
theorem k6_arg15 (c : Dev nD) : W6 m ρ c (Proc.devRef .tc main_arg15) = m ((c : Thread nD τ).loc main_arg15) :=
  (W6_of_ne m ρ c main_arg15 (by decide)).trans (k5_arg15 m ρ c)
theorem k7_arg15 (c : Dev nD) : W7 m ρ c (Proc.devRef .tc main_arg15) = m ((c : Thread nD τ).loc main_arg15) :=
  (show W7 m ρ c (Proc.devRef .tc main_arg15) = W6 m ρ c (Proc.devRef .tc main_arg15) from by not_written).trans (k6_arg15 m ρ c)
theorem k8_arg15 (c : Dev nD) : W8 m ρ c (Proc.devRef .tc main_arg15) = m ((c : Thread nD τ).loc main_arg15) :=
  (W8_of_ne m ρ c main_arg15 (by decide)).trans (k7_arg15 m ρ c)
theorem k1_arg16 (c : Dev nD) : W1 m ρ c (Proc.devRef .tc main_arg16) = m ((c : Thread nD τ).loc main_arg16) :=
  (show W1 m ρ c (Proc.devRef .tc main_arg16) = W0 m ρ c (Proc.devRef .tc main_arg16) from by not_written).trans rfl
theorem k2_arg16 (c : Dev nD) : W2 m ρ c (Proc.devRef .tc main_arg16) = m ((c : Thread nD τ).loc main_arg16) :=
  (W2_of_ne m ρ c main_arg16 (by decide)).trans (k1_arg16 m ρ c)
theorem k3_arg16 (c : Dev nD) : W3 m ρ c (Proc.devRef .tc main_arg16) = m ((c : Thread nD τ).loc main_arg16) :=
  (show W3 m ρ c (Proc.devRef .tc main_arg16) = W2 m ρ c (Proc.devRef .tc main_arg16) from by not_written).trans (k2_arg16 m ρ c)
theorem k4_arg16 (c : Dev nD) : W4 m ρ c (Proc.devRef .tc main_arg16) = m ((c : Thread nD τ).loc main_arg16) :=
  (W4_of_ne m ρ c main_arg16 (by decide)).trans (k3_arg16 m ρ c)
theorem k5_arg16 (c : Dev nD) : W5 m ρ c (Proc.devRef .tc main_arg16) = m ((c : Thread nD τ).loc main_arg16) :=
  (show W5 m ρ c (Proc.devRef .tc main_arg16) = W4 m ρ c (Proc.devRef .tc main_arg16) from by not_written).trans (k4_arg16 m ρ c)
theorem k6_arg16 (c : Dev nD) : W6 m ρ c (Proc.devRef .tc main_arg16) = m ((c : Thread nD τ).loc main_arg16) :=
  (W6_of_ne m ρ c main_arg16 (by decide)).trans (k5_arg16 m ρ c)
theorem k7_arg16 (c : Dev nD) : W7 m ρ c (Proc.devRef .tc main_arg16) = m ((c : Thread nD τ).loc main_arg16) :=
  (show W7 m ρ c (Proc.devRef .tc main_arg16) = W6 m ρ c (Proc.devRef .tc main_arg16) from by not_written).trans (k6_arg16 m ρ c)
theorem k8_arg16 (c : Dev nD) : W8 m ρ c (Proc.devRef .tc main_arg16) = m ((c : Thread nD τ).loc main_arg16) :=
  (W8_of_ne m ρ c main_arg16 (by decide)).trans (k7_arg16 m ρ c)

/-! ## The two degree normalisers, computed by the first stretch and read by the next two -/

theorem n1_v34 (c : Dev nD) : W1 m ρ c (Proc.devRef .tc main_v34) = degNorm (m ((c : Thread nD τ).loc main_arg2)) := by
  show StableHlo.after hostOps0 (W0 m ρ c) (Proc.devRef .tc main_v34) = _
  unfold degNorm wrapEdge
  after_results_simp <;> rfl
theorem n2_v34 (c : Dev nD) : W2 m ρ c (Proc.devRef .tc main_v34) = degNorm (m ((c : Thread nD τ).loc main_arg2)) :=
  (W2_of_ne m ρ c main_v34 (by decide)).trans (n1_v34 m ρ c)
theorem n3_v34 (c : Dev nD) : W3 m ρ c (Proc.devRef .tc main_v34) = degNorm (m ((c : Thread nD τ).loc main_arg2)) :=
  (show W3 m ρ c (Proc.devRef .tc main_v34) = W2 m ρ c (Proc.devRef .tc main_v34) from by not_written).trans (n2_v34 m ρ c)
theorem n4_v34 (c : Dev nD) : W4 m ρ c (Proc.devRef .tc main_v34) = degNorm (m ((c : Thread nD τ).loc main_arg2)) :=
  (W4_of_ne m ρ c main_v34 (by decide)).trans (n3_v34 m ρ c)
theorem n1_v37 (c : Dev nD) : W1 m ρ c (Proc.devRef .tc main_v37) = degNorm (m ((c : Thread nD τ).loc main_arg3)) := by
  show StableHlo.after hostOps0 (W0 m ρ c) (Proc.devRef .tc main_v37) = _
  unfold degNorm wrapEdge
  after_results_simp <;> rfl
theorem n2_v37 (c : Dev nD) : W2 m ρ c (Proc.devRef .tc main_v37) = degNorm (m ((c : Thread nD τ).loc main_arg3)) :=
  (W2_of_ne m ρ c main_v37 (by decide)).trans (n1_v37 m ρ c)
theorem n3_v37 (c : Dev nD) : W3 m ρ c (Proc.devRef .tc main_v37) = degNorm (m ((c : Thread nD τ).loc main_arg3)) :=
  (show W3 m ρ c (Proc.devRef .tc main_v37) = W2 m ρ c (Proc.devRef .tc main_v37) from by not_written).trans (n2_v37 m ρ c)
theorem n4_v37 (c : Dev nD) : W4 m ρ c (Proc.devRef .tc main_v37) = degNorm (m ((c : Thread nD τ).loc main_arg3)) :=
  (W4_of_ne m ρ c main_v37 (by decide)).trans (n3_v37 m ρ c)

/-! ## The stages -/

/-- The first stretch: embedded features, normalised and aggregated once. -/
theorem st1 (c : Dev nD) : W1 m ρ c (Proc.devRef .tc main_v53) = (propagate (embed (m ((c : Thread nD τ).loc main_arg0)) (m ((c : Thread nD τ).loc main_arg1)) (m ((c : Thread nD τ).loc main_arg5)) (m ((c : Thread nD τ).loc main_arg6))) (m ((c : Thread nD τ).loc main_arg2)) (m ((c : Thread nD τ).loc main_arg3)) (degNorm (m ((c : Thread nD τ).loc main_arg2))) (degNorm (m ((c : Thread nD τ).loc main_arg3)))) := by
  show StableHlo.after hostOps0 (W0 m ρ c) (Proc.devRef .tc main_v53) = _
  unfold propagate embed degNorm wrapNode wrapEdge
  after_results_simp <;> rfl

/-- The first launch: the first dense layer. -/
theorem st2 (c : Dev nD) : W2 m ρ c (Proc.devRef .tc main_v54) = (denseRelu 50000 128 128 (propagate (embed (m ((c : Thread nD τ).loc main_arg0)) (m ((c : Thread nD τ).loc main_arg1)) (m ((c : Thread nD τ).loc main_arg5)) (m ((c : Thread nD τ).loc main_arg6))) (m ((c : Thread nD τ).loc main_arg2)) (m ((c : Thread nD τ).loc main_arg3)) (degNorm (m ((c : Thread nD τ).loc main_arg2))) (degNorm (m ((c : Thread nD τ).loc main_arg3)))) (m ((c : Thread nD τ).loc main_arg7)) (m ((c : Thread nD τ).loc main_arg8))) := by
  refine (W2_arr m ρ c 3).trans ((Blocks.arr0 (V1 m ρ) c).trans ?_)
  show denseRelu 50000 128 128 (W1 m ρ c (Proc.devRef .tc main_v53)) (W1 m ρ c (Proc.devRef .tc main_arg7)) (W1 m ρ c (Proc.devRef .tc main_arg8)) = _
  rw [st1, k1_arg7, k1_arg8]

/-- The second stretch aggregates the first layer's result. -/
theorem st3 (c : Dev nD) : W3 m ρ c (Proc.devRef .tc main_v70) = (propagate (denseRelu 50000 128 128 (propagate (embed (m ((c : Thread nD τ).loc main_arg0)) (m ((c : Thread nD τ).loc main_arg1)) (m ((c : Thread nD τ).loc main_arg5)) (m ((c : Thread nD τ).loc main_arg6))) (m ((c : Thread nD τ).loc main_arg2)) (m ((c : Thread nD τ).loc main_arg3)) (degNorm (m ((c : Thread nD τ).loc main_arg2))) (degNorm (m ((c : Thread nD τ).loc main_arg3)))) (m ((c : Thread nD τ).loc main_arg7)) (m ((c : Thread nD τ).loc main_arg8))) (m ((c : Thread nD τ).loc main_arg2)) (m ((c : Thread nD τ).loc main_arg3)) (degNorm (m ((c : Thread nD τ).loc main_arg2))) (degNorm (m ((c : Thread nD τ).loc main_arg3)))) := by
  have h : W3 m ρ c (Proc.devRef .tc main_v70) = propagate (W2 m ρ c (Proc.devRef .tc main_v54)) (W2 m ρ c (Proc.devRef .tc main_arg2))
      (W2 m ρ c (Proc.devRef .tc main_arg3)) (W2 m ρ c (Proc.devRef .tc main_v34)) (W2 m ρ c (Proc.devRef .tc main_v37)) := by
    show StableHlo.after hostOps1 (W2 m ρ c) (Proc.devRef .tc main_v70) = _
    unfold propagate wrapEdge
    after_results_simp <;> rfl
  rw [h, st2, k2_arg2, k2_arg3, n2_v34, n2_v37]

/-- The second launch: the second dense layer. -/
theorem st4 (c : Dev nD) : W4 m ρ c (Proc.devRef .tc main_v71) = (denseRelu 50000 128 128 (propagate (denseRelu 50000 128 128 (propagate (embed (m ((c : Thread nD τ).loc main_arg0)) (m ((c : Thread nD τ).loc main_arg1)) (m ((c : Thread nD τ).loc main_arg5)) (m ((c : Thread nD τ).loc main_arg6))) (m ((c : Thread nD τ).loc main_arg2)) (m ((c : Thread nD τ).loc main_arg3)) (degNorm (m ((c : Thread nD τ).loc main_arg2))) (degNorm (m ((c : Thread nD τ).loc main_arg3)))) (m ((c : Thread nD τ).loc main_arg7)) (m ((c : Thread nD τ).loc main_arg8))) (m ((c : Thread nD τ).loc main_arg2)) (m ((c : Thread nD τ).loc main_arg3)) (degNorm (m ((c : Thread nD τ).loc main_arg2))) (degNorm (m ((c : Thread nD τ).loc main_arg3)))) (m ((c : Thread nD τ).loc main_arg9)) (m ((c : Thread nD τ).loc main_arg10))) := by
  refine (W4_arr m ρ c 3).trans ((Blocks.arr1 (V3 m ρ) c).trans ?_)
  show denseRelu 50000 128 128 (W3 m ρ c (Proc.devRef .tc main_v70)) (W3 m ρ c (Proc.devRef .tc main_arg9)) (W3 m ρ c (Proc.devRef .tc main_arg10)) = _
  rw [st3, k3_arg9, k3_arg10]

/-- The third stretch aggregates the second layer's result. -/
theorem st5 (c : Dev nD) : W5 m ρ c (Proc.devRef .tc main_v87) = (propagate (denseRelu 50000 128 128 (propagate (denseRelu 50000 128 128 (propagate (embed (m ((c : Thread nD τ).loc main_arg0)) (m ((c : Thread nD τ).loc main_arg1)) (m ((c : Thread nD τ).loc main_arg5)) (m ((c : Thread nD τ).loc main_arg6))) (m ((c : Thread nD τ).loc main_arg2)) (m ((c : Thread nD τ).loc main_arg3)) (degNorm (m ((c : Thread nD τ).loc main_arg2))) (degNorm (m ((c : Thread nD τ).loc main_arg3)))) (m ((c : Thread nD τ).loc main_arg7)) (m ((c : Thread nD τ).loc main_arg8))) (m ((c : Thread nD τ).loc main_arg2)) (m ((c : Thread nD τ).loc main_arg3)) (degNorm (m ((c : Thread nD τ).loc main_arg2))) (degNorm (m ((c : Thread nD τ).loc main_arg3)))) (m ((c : Thread nD τ).loc main_arg9)) (m ((c : Thread nD τ).loc main_arg10))) (m ((c : Thread nD τ).loc main_arg2)) (m ((c : Thread nD τ).loc main_arg3)) (degNorm (m ((c : Thread nD τ).loc main_arg2))) (degNorm (m ((c : Thread nD τ).loc main_arg3)))) := by
  have h : W5 m ρ c (Proc.devRef .tc main_v87) = propagate (W4 m ρ c (Proc.devRef .tc main_v71)) (W4 m ρ c (Proc.devRef .tc main_arg2))
      (W4 m ρ c (Proc.devRef .tc main_arg3)) (W4 m ρ c (Proc.devRef .tc main_v34)) (W4 m ρ c (Proc.devRef .tc main_v37)) := by
    show StableHlo.after hostOps2 (W4 m ρ c) (Proc.devRef .tc main_v87) = _
    unfold propagate wrapEdge
    after_results_simp <;> rfl
  rw [h, st4, k4_arg2, k4_arg3, n4_v34, n4_v37]

/-- The third launch: the third dense layer (no maximum). -/
theorem st6 (c : Dev nD) : W6 m ρ c (Proc.devRef .tc main_v88) = (dense 50000 128 128 (propagate (denseRelu 50000 128 128 (propagate (denseRelu 50000 128 128 (propagate (embed (m ((c : Thread nD τ).loc main_arg0)) (m ((c : Thread nD τ).loc main_arg1)) (m ((c : Thread nD τ).loc main_arg5)) (m ((c : Thread nD τ).loc main_arg6))) (m ((c : Thread nD τ).loc main_arg2)) (m ((c : Thread nD τ).loc main_arg3)) (degNorm (m ((c : Thread nD τ).loc main_arg2))) (degNorm (m ((c : Thread nD τ).loc main_arg3)))) (m ((c : Thread nD τ).loc main_arg7)) (m ((c : Thread nD τ).loc main_arg8))) (m ((c : Thread nD τ).loc main_arg2)) (m ((c : Thread nD τ).loc main_arg3)) (degNorm (m ((c : Thread nD τ).loc main_arg2))) (degNorm (m ((c : Thread nD τ).loc main_arg3)))) (m ((c : Thread nD τ).loc main_arg9)) (m ((c : Thread nD τ).loc main_arg10))) (m ((c : Thread nD τ).loc main_arg2)) (m ((c : Thread nD τ).loc main_arg3)) (degNorm (m ((c : Thread nD τ).loc main_arg2))) (degNorm (m ((c : Thread nD τ).loc main_arg3)))) (m ((c : Thread nD τ).loc main_arg11)) (m ((c : Thread nD τ).loc main_arg12))) := by
  refine (W6_arr m ρ c 3).trans ((Blocks.arr2 (V5 m ρ) c).trans ?_)
  show dense 50000 128 128 (W5 m ρ c (Proc.devRef .tc main_v87)) (W5 m ρ c (Proc.devRef .tc main_arg11)) (W5 m ρ c (Proc.devRef .tc main_arg12)) = _
  rw [st5, k5_arg11, k5_arg12]

/-- The last stretch pools the rows per graph. -/
theorem st7 (c : Dev nD) : W7 m ρ c (Proc.devRef .tc main_v91) = (Cert.Net.pool (dense 50000 128 128 (propagate (denseRelu 50000 128 128 (propagate (denseRelu 50000 128 128 (propagate (embed (m ((c : Thread nD τ).loc main_arg0)) (m ((c : Thread nD τ).loc main_arg1)) (m ((c : Thread nD τ).loc main_arg5)) (m ((c : Thread nD τ).loc main_arg6))) (m ((c : Thread nD τ).loc main_arg2)) (m ((c : Thread nD τ).loc main_arg3)) (degNorm (m ((c : Thread nD τ).loc main_arg2))) (degNorm (m ((c : Thread nD τ).loc main_arg3)))) (m ((c : Thread nD τ).loc main_arg7)) (m ((c : Thread nD τ).loc main_arg8))) (m ((c : Thread nD τ).loc main_arg2)) (m ((c : Thread nD τ).loc main_arg3)) (degNorm (m ((c : Thread nD τ).loc main_arg2))) (degNorm (m ((c : Thread nD τ).loc main_arg3)))) (m ((c : Thread nD τ).loc main_arg9)) (m ((c : Thread nD τ).loc main_arg10))) (m ((c : Thread nD τ).loc main_arg2)) (m ((c : Thread nD τ).loc main_arg3)) (degNorm (m ((c : Thread nD τ).loc main_arg2))) (degNorm (m ((c : Thread nD τ).loc main_arg3)))) (m ((c : Thread nD τ).loc main_arg11)) (m ((c : Thread nD τ).loc main_arg12))) (m ((c : Thread nD τ).loc main_arg4))) := by
  have h : W7 m ρ c (Proc.devRef .tc main_v91) = Cert.Net.pool (W6 m ρ c (Proc.devRef .tc main_v88)) (W6 m ρ c (Proc.devRef .tc main_arg4)) := by
    show StableHlo.after hostOps3 (W6 m ρ c) (Proc.devRef .tc main_v91) = _
    unfold Cert.Net.pool
    after_results_simp <;> rfl
  rw [h, st6, k6_arg4]

/-- The fourth launch: the head's first dense layer. -/
theorem st8 (c : Dev nD) : W8 m ρ c (Proc.devRef .tc main_v92) = (denseRelu 512 128 128 (Cert.Net.pool (dense 50000 128 128 (propagate (denseRelu 50000 128 128 (propagate (denseRelu 50000 128 128 (propagate (embed (m ((c : Thread nD τ).loc main_arg0)) (m ((c : Thread nD τ).loc main_arg1)) (m ((c : Thread nD τ).loc main_arg5)) (m ((c : Thread nD τ).loc main_arg6))) (m ((c : Thread nD τ).loc main_arg2)) (m ((c : Thread nD τ).loc main_arg3)) (degNorm (m ((c : Thread nD τ).loc main_arg2))) (degNorm (m ((c : Thread nD τ).loc main_arg3)))) (m ((c : Thread nD τ).loc main_arg7)) (m ((c : Thread nD τ).loc main_arg8))) (m ((c : Thread nD τ).loc main_arg2)) (m ((c : Thread nD τ).loc main_arg3)) (degNorm (m ((c : Thread nD τ).loc main_arg2))) (degNorm (m ((c : Thread nD τ).loc main_arg3)))) (m ((c : Thread nD τ).loc main_arg9)) (m ((c : Thread nD τ).loc main_arg10))) (m ((c : Thread nD τ).loc main_arg2)) (m ((c : Thread nD τ).loc main_arg3)) (degNorm (m ((c : Thread nD τ).loc main_arg2))) (degNorm (m ((c : Thread nD τ).loc main_arg3)))) (m ((c : Thread nD τ).loc main_arg11)) (m ((c : Thread nD τ).loc main_arg12))) (m ((c : Thread nD τ).loc main_arg4))) (m ((c : Thread nD τ).loc main_arg13)) (m ((c : Thread nD τ).loc main_arg14))) := by
  refine (W8_arr m ρ c 3).trans ((Blocks.arr3 (V7 m ρ) c).trans ?_)
  show denseRelu 512 128 128 (W7 m ρ c (Proc.devRef .tc main_v91)) (W7 m ρ c (Proc.devRef .tc main_arg13)) (W7 m ρ c (Proc.devRef .tc main_arg14)) = _
  rw [st7, k7_arg13, k7_arg14]

/-- The fifth launch: the head's second dense layer — the result buffer holds the network of the arguments. -/
theorem result_eq (c : Dev nD) : W9 m ρ c (Proc.devRef .tc main_v93)
    = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W9_arr m ρ c 3).trans ((Blocks.arr4 (V8 m ρ) c).trans ?_)
  show dense 512 128 200 (W8 m ρ c (Proc.devRef .tc main_v92)) (W8 m ρ c (Proc.devRef .tc main_arg15)) (W8 m ρ c (Proc.devRef .tc main_arg16)) = _
  rw [st8, k8_arg15, k8_arg16]
  rfl

end Cert.KernelIdeal.Fold

end
-- ==== Proof.RefDense.lean ====
/-
  The reference's dense layers, index by index.

  The reference computes a dense layer with the host's matrix product, adds the bias broadcast down the rows, and
  (where the network has it) takes the maximum with an array of zeros. On the extended reals the host's product at
  (r, c) is the plain sum over k of x(r,k) · W(k,c), the broadcasts read the bias at c and the zero, so each of
  these is the index-by-index dense layer.
-/
import proofs.«154146_j14370960573130_1_alg».proof.Proof.Gen.ReferenceIdeal
import proofs.«154146_j14370960573130_1_alg».proof.Proof.Net
import proofs.«154146_j14370960573130_1_alg».proof.Proof.DotSum
import Idealize.ShloMosaic.Lib.Pipeline.Value

noncomputable section

namespace Cert.ReferenceIdeal.RefValue

open Cert.ReferenceIdeal Cert.ReferenceIdeal.Facts₀ Cert.Net Idealize.ShloMosaic ValueIdx

/-- The product's sum for these dimension numbers ([50000, 128] by [128, 128]): over k, x(r,k) · W(k,c). -/
theorem sum_hostdot50000 (x : (⟨2, ![50000, 128]⟩ : Shape).Idx → EReal) (W : (⟨2, ![128, 128]⟩ : Shape).Idx → EReal)
    (i : (⟨2, ![50000, 128]⟩ : Shape).Idx) :
    ∑ q : dot_S50000x128_S128x128_S50000x128_1_0_0_1_n_n.contr.Idx, x (dot_S50000x128_S128x128_S50000x128_1_0_0_1_n_n.lhsIdx i q) * W (dot_S50000x128_S128x128_S50000x128_1_0_0_1_n_n.rhsIdx i q)
      = ∑ k : Fin 128, x (ix2 (n0 := 50000) (n1 := 128) (i 0) k) * W (ix2 (n0 := 128) (n1 := 128) k (i 1)) :=
  dot_sum_ix2 dot_S50000x128_S128x128_S50000x128_1_0_0_1_n_n rfl rfl
    (fun i q => by
      unfold DotDims.lhsIdx
      rw [dif_neg (show ¬(0 : Fin S50000x128.rank) ∈ dot_S50000x128_S128x128_S50000x128_1_0_0_1_n_n.lhsBatch by decide),
        dif_pos (show (0 : Fin S50000x128.rank) ∈ dot_S50000x128_S128x128_S50000x128_1_0_0_1_n_n.lhsNonContracting by decide)]
      rfl)
    (fun i q => dot_S50000x128_S128x128_S50000x128_1_0_0_1_n_n.lhsIdx_val_of_single rfl i q)
    (fun i q => dot_S50000x128_S128x128_S50000x128_1_0_0_1_n_n.rhsIdx_val_of_single rfl i q)
    (fun i q => by
      unfold DotDims.rhsIdx
      rw [dif_neg (show ¬(1 : Fin S128x128.rank) ∈ dot_S50000x128_S128x128_S50000x128_1_0_0_1_n_n.rhsBatch by decide),
        dif_pos (show (1 : Fin S128x128.rank) ∈ dot_S50000x128_S128x128_S50000x128_1_0_0_1_n_n.rhsNonContracting by decide)]
      rfl)
    x W i

/-- The product's sum for these dimension numbers ([512, 128] by [128, 128]): over k, x(r,k) · W(k,c). -/
theorem sum_hostdot512 (x : (⟨2, ![512, 128]⟩ : Shape).Idx → EReal) (W : (⟨2, ![128, 128]⟩ : Shape).Idx → EReal)
    (i : (⟨2, ![512, 128]⟩ : Shape).Idx) :
    ∑ q : dot_S512x128_S128x128_S512x128_1_0_0_1_n_n.contr.Idx, x (dot_S512x128_S128x128_S512x128_1_0_0_1_n_n.lhsIdx i q) * W (dot_S512x128_S128x128_S512x128_1_0_0_1_n_n.rhsIdx i q)
      = ∑ k : Fin 128, x (ix2 (n0 := 512) (n1 := 128) (i 0) k) * W (ix2 (n0 := 128) (n1 := 128) k (i 1)) :=
  dot_sum_ix2 dot_S512x128_S128x128_S512x128_1_0_0_1_n_n rfl rfl
    (fun i q => by
      unfold DotDims.lhsIdx
      rw [dif_neg (show ¬(0 : Fin S512x128.rank) ∈ dot_S512x128_S128x128_S512x128_1_0_0_1_n_n.lhsBatch by decide),
        dif_pos (show (0 : Fin S512x128.rank) ∈ dot_S512x128_S128x128_S512x128_1_0_0_1_n_n.lhsNonContracting by decide)]
      rfl)
    (fun i q => dot_S512x128_S128x128_S512x128_1_0_0_1_n_n.lhsIdx_val_of_single rfl i q)
    (fun i q => dot_S512x128_S128x128_S512x128_1_0_0_1_n_n.rhsIdx_val_of_single rfl i q)
    (fun i q => by
      unfold DotDims.rhsIdx
      rw [dif_neg (show ¬(1 : Fin S128x128.rank) ∈ dot_S512x128_S128x128_S512x128_1_0_0_1_n_n.rhsBatch by decide),
        dif_pos (show (1 : Fin S128x128.rank) ∈ dot_S512x128_S128x128_S512x128_1_0_0_1_n_n.rhsNonContracting by decide)]
      rfl)
    x W i

/-- The product's sum for these dimension numbers ([512, 128] by [128, 200]): over k, x(r,k) · W(k,c). -/
theorem sum_hostdot512x200 (x : (⟨2, ![512, 128]⟩ : Shape).Idx → EReal) (W : (⟨2, ![128, 200]⟩ : Shape).Idx → EReal)
    (i : (⟨2, ![512, 200]⟩ : Shape).Idx) :
    ∑ q : dot_S512x128_S128x200_S512x200_1_0_0_1_n_n.contr.Idx, x (dot_S512x128_S128x200_S512x200_1_0_0_1_n_n.lhsIdx i q) * W (dot_S512x128_S128x200_S512x200_1_0_0_1_n_n.rhsIdx i q)
      = ∑ k : Fin 128, x (ix2 (n0 := 512) (n1 := 128) (i 0) k) * W (ix2 (n0 := 128) (n1 := 200) k (i 1)) :=
  dot_sum_ix2 dot_S512x128_S128x200_S512x200_1_0_0_1_n_n rfl rfl
    (fun i q => by
      unfold DotDims.lhsIdx
      rw [dif_neg (show ¬(0 : Fin S512x128.rank) ∈ dot_S512x128_S128x200_S512x200_1_0_0_1_n_n.lhsBatch by decide),
        dif_pos (show (0 : Fin S512x128.rank) ∈ dot_S512x128_S128x200_S512x200_1_0_0_1_n_n.lhsNonContracting by decide)]
      rfl)
    (fun i q => dot_S512x128_S128x200_S512x200_1_0_0_1_n_n.lhsIdx_val_of_single rfl i q)
    (fun i q => dot_S512x128_S128x200_S512x200_1_0_0_1_n_n.rhsIdx_val_of_single rfl i q)
    (fun i q => by
      unfold DotDims.rhsIdx
      rw [dif_neg (show ¬(1 : Fin S128x200.rank) ∈ dot_S512x128_S128x200_S512x200_1_0_0_1_n_n.rhsBatch by decide),
        dif_pos (show (1 : Fin S128x200.rank) ∈ dot_S512x128_S128x200_S512x200_1_0_0_1_n_n.rhsNonContracting by decide)]
      rfl)
    x W i

/-- The reference's dense layer on [50000, 128] rows: the host's matrix product plus the bias broadcast down the rows. -/
def hostDense50000 (x : FVec Ideal S50000x128 .f32) (W : FVec Ideal S128x128 .f32) (b : FVec Ideal S128 .f32) : FVec Ideal S50000x128 .f32 :=
  addf (Host.dotGeneral dot_S50000x128_S128x128_S50000x128_1_0_0_1_n_n none x W)
    (broadcastInDim S50000x128 ![0, 1] bcast_S1x128_S50000x128_0_1 (broadcastInDim S1x128 ![1] bcast_S128_S1x128_1 b))

theorem hostDense50000_apply (x : FVec Ideal S50000x128 .f32) (W : FVec Ideal S128x128 .f32) (b : FVec Ideal S128 .f32) (r : Fin 50000) (c : Fin 128) :
    hostDense50000 x W b (ix2 r c) = (∑ k : Fin 128, x (ix2 r k) * W (ix2 k c)) + b (ix1 c) := by
  unfold hostDense50000
  rw [addf_apply]
  have h1 : Host.dotGeneral dot_S50000x128_S128x128_S50000x128_1_0_0_1_n_n none x W (ix2 r c) = ∑ k : Fin 128, x (ix2 r k) * W (ix2 k c) := by
    simp only [Host.dotGeneral]
    rw [Ideal.dotGeneral_apply]
    exact sum_hostdot50000 x W (ix2 r c)
  have h2 : broadcastInDim S50000x128 ![0, 1] bcast_S1x128_S50000x128_0_1 (broadcastInDim S1x128 ![1] bcast_S128_S1x128_1 b) (ix2 r c) = b (ix1 c) := by
    rw [broadcastInDim_apply _ bcast_S1x128_S50000x128_0_1 _ (ix2 r c) (ix2 (0 : Fin 1) c) (fun a => match a with
      | ⟨0, _⟩ => by show 0 = if (1 : Nat) = 1 then 0 else r.val; rw [if_pos rfl]
      | ⟨1, _⟩ => by show c.val = if (128 : Nat) = 1 then 0 else c.val; rw [if_neg (by decide)])]
    exact broadcastInDim_apply _ bcast_S128_S1x128_1 b (ix2 (0 : Fin 1) c) (ix1 c) (fun a => match a with
      | ⟨0, _⟩ => by show c.val = if (128 : Nat) = 1 then 0 else c.val; rw [if_neg (by decide)])
  rw [h1, h2]

theorem hostDense50000_eq : hostDense50000 = dense 50000 128 128 := by
  funext x W b j
  obtain ⟨r, c, rfl⟩ : ∃ (r : Fin 50000) (c : Fin 128), j = ix2 r c := ⟨j 0, j 1, eq_ix2 j⟩
  rw [dense_apply]; exact hostDense50000_apply x W b r c

/-- The same followed by the reference's max with the zero array. -/
def hostDenseRelu50000 (x : FVec Ideal S50000x128 .f32) (W : FVec Ideal S128x128 .f32) (b : FVec Ideal S128 .f32) : FVec Ideal S50000x128 .f32 :=
  maximumf (hostDense50000 x W b) (broadcastInDim S50000x128 ![] bcast_S_S50000x128 (constant S_ .f32 0x00000000#32))

theorem hostDenseRelu50000_eq : hostDenseRelu50000 = denseRelu 50000 128 128 := by
  funext x W b j
  obtain ⟨r, c, rfl⟩ : ∃ (r : Fin 50000) (c : Fin 128), j = ix2 r c := ⟨j 0, j 1, eq_ix2 j⟩
  rw [denseRelu_apply]
  unfold hostDenseRelu50000
  rw [maximumf_apply, hostDense50000_apply]
  have h3 : broadcastInDim S50000x128 ![] bcast_S_S50000x128 (constant (F := Ideal) S_ .f32 0x00000000#32) (ix2 r c) = 0 := by
    rw [broadcastInDim_apply _ bcast_S_S50000x128 _ (ix2 r c) ix0 (fun a => a.elim0)]
    exact Ideal.ofBits_zero_f32
  rw [h3]

/-- The reference's dense layer on [512, 128] rows: the host's matrix product plus the bias broadcast down the rows. -/
def hostDense512 (x : FVec Ideal S512x128 .f32) (W : FVec Ideal S128x128 .f32) (b : FVec Ideal S128 .f32) : FVec Ideal S512x128 .f32 :=
  addf (Host.dotGeneral dot_S512x128_S128x128_S512x128_1_0_0_1_n_n none x W)
    (broadcastInDim S512x128 ![0, 1] bcast_S1x128_S512x128_0_1 (broadcastInDim S1x128 ![1] bcast_S128_S1x128_1 b))

theorem hostDense512_apply (x : FVec Ideal S512x128 .f32) (W : FVec Ideal S128x128 .f32) (b : FVec Ideal S128 .f32) (r : Fin 512) (c : Fin 128) :
    hostDense512 x W b (ix2 r c) = (∑ k : Fin 128, x (ix2 r k) * W (ix2 k c)) + b (ix1 c) := by
  unfold hostDense512
  rw [addf_apply]
  have h1 : Host.dotGeneral dot_S512x128_S128x128_S512x128_1_0_0_1_n_n none x W (ix2 r c) = ∑ k : Fin 128, x (ix2 r k) * W (ix2 k c) := by
    simp only [Host.dotGeneral]
    rw [Ideal.dotGeneral_apply]
    exact sum_hostdot512 x W (ix2 r c)
  have h2 : broadcastInDim S512x128 ![0, 1] bcast_S1x128_S512x128_0_1 (broadcastInDim S1x128 ![1] bcast_S128_S1x128_1 b) (ix2 r c) = b (ix1 c) := by
    rw [broadcastInDim_apply _ bcast_S1x128_S512x128_0_1 _ (ix2 r c) (ix2 (0 : Fin 1) c) (fun a => match a with
      | ⟨0, _⟩ => by show 0 = if (1 : Nat) = 1 then 0 else r.val; rw [if_pos rfl]
      | ⟨1, _⟩ => by show c.val = if (128 : Nat) = 1 then 0 else c.val; rw [if_neg (by decide)])]
    exact broadcastInDim_apply _ bcast_S128_S1x128_1 b (ix2 (0 : Fin 1) c) (ix1 c) (fun a => match a with
      | ⟨0, _⟩ => by show c.val = if (128 : Nat) = 1 then 0 else c.val; rw [if_neg (by decide)])
  rw [h1, h2]

/-- The same followed by the reference's max with the zero array. -/
def hostDenseRelu512 (x : FVec Ideal S512x128 .f32) (W : FVec Ideal S128x128 .f32) (b : FVec Ideal S128 .f32) : FVec Ideal S512x128 .f32 :=
  maximumf (hostDense512 x W b) (broadcastInDim S512x128 ![] bcast_S_S512x128 (constant S_ .f32 0x00000000#32))

theorem hostDenseRelu512_eq : hostDenseRelu512 = denseRelu 512 128 128 := by
  funext x W b j
  obtain ⟨r, c, rfl⟩ : ∃ (r : Fin 512) (c : Fin 128), j = ix2 r c := ⟨j 0, j 1, eq_ix2 j⟩
  rw [denseRelu_apply]
  unfold hostDenseRelu512
  rw [maximumf_apply, hostDense512_apply]
  have h3 : broadcastInDim S512x128 ![] bcast_S_S512x128 (constant (F := Ideal) S_ .f32 0x00000000#32) (ix2 r c) = 0 := by
    rw [broadcastInDim_apply _ bcast_S_S512x128 _ (ix2 r c) ix0 (fun a => a.elim0)]
    exact Ideal.ofBits_zero_f32
  rw [h3]

/-- The reference's dense layer on [512, 128] rows: the host's matrix product plus the bias broadcast down the rows. -/
def hostDense512x200 (x : FVec Ideal S512x128 .f32) (W : FVec Ideal S128x200 .f32) (b : FVec Ideal S200 .f32) : FVec Ideal S512x200 .f32 :=
  addf (Host.dotGeneral dot_S512x128_S128x200_S512x200_1_0_0_1_n_n none x W)
    (broadcastInDim S512x200 ![0, 1] bcast_S1x200_S512x200_0_1 (broadcastInDim S1x200 ![1] bcast_S200_S1x200_1 b))

theorem hostDense512x200_apply (x : FVec Ideal S512x128 .f32) (W : FVec Ideal S128x200 .f32) (b : FVec Ideal S200 .f32) (r : Fin 512) (c : Fin 200) :
    hostDense512x200 x W b (ix2 r c) = (∑ k : Fin 128, x (ix2 r k) * W (ix2 k c)) + b (ix1 c) := by
  unfold hostDense512x200
  rw [addf_apply]
  have h1 : Host.dotGeneral dot_S512x128_S128x200_S512x200_1_0_0_1_n_n none x W (ix2 r c) = ∑ k : Fin 128, x (ix2 r k) * W (ix2 k c) := by
    simp only [Host.dotGeneral]
    rw [Ideal.dotGeneral_apply]
    exact sum_hostdot512x200 x W (ix2 r c)
  have h2 : broadcastInDim S512x200 ![0, 1] bcast_S1x200_S512x200_0_1 (broadcastInDim S1x200 ![1] bcast_S200_S1x200_1 b) (ix2 r c) = b (ix1 c) := by
    rw [broadcastInDim_apply _ bcast_S1x200_S512x200_0_1 _ (ix2 r c) (ix2 (0 : Fin 1) c) (fun a => match a with
      | ⟨0, _⟩ => by show 0 = if (1 : Nat) = 1 then 0 else r.val; rw [if_pos rfl]
      | ⟨1, _⟩ => by show c.val = if (200 : Nat) = 1 then 0 else c.val; rw [if_neg (by decide)])]
    exact broadcastInDim_apply _ bcast_S200_S1x200_1 b (ix2 (0 : Fin 1) c) (ix1 c) (fun a => match a with
      | ⟨0, _⟩ => by show c.val = if (200 : Nat) = 1 then 0 else c.val; rw [if_neg (by decide)])
  rw [h1, h2]

theorem hostDense512x200_eq : hostDense512x200 = dense 512 128 200 := by
  funext x W b j
  obtain ⟨r, c, rfl⟩ : ∃ (r : Fin 512) (c : Fin 200), j = ix2 r c := ⟨j 0, j 1, eq_ix2 j⟩
  rw [dense_apply]; exact hostDense512x200_apply x W b r c

end Cert.ReferenceIdeal.RefValue

end
-- ==== Proof.RefValue.lean ====
/-
  The reference's result as the network of its arguments.

  The reference program is one straight line of host operations; its run states the result as their composed
  term. That term is the network spelt with the same host operations, its five dense layers computed by the host's
  matrix product — which, index by index, are the dense layers of the network's value.
-/
import proofs.«154146_j14370960573130_1_alg».proof.Proof.Gen.ReferenceIdeal.Run
import proofs.«154146_j14370960573130_1_alg».proof.Proof.RefDense

set_option maxRecDepth 16384

noncomputable section

namespace Cert.ReferenceIdeal.RefValue

open Cert.ReferenceIdeal Cert.ReferenceIdeal.Gen Cert.Net
open Idealize.ShloMosaic Idealize.ShloMosaic.TcCoe Idealize.SL.Sem

variable (m : (ℓ : Loc nD τ sig) → Buf (Elt Ideal) ℓ)

/-- The composed term, operation for operation, is the network over the host's dense layers. -/
theorem res_eq_net (c : Dev nD) : Value.res_main_v157 (F := Ideal) m c
    = net (F := Ideal) hostDenseRelu50000 hostDenseRelu50000 hostDense50000 hostDenseRelu512 hostDense512x200
        (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  unfold Value.res_main_v157 net propagate embed degNorm Cert.Net.pool wrapNode wrapEdge hostDenseRelu50000 hostDense50000
    hostDenseRelu512 hostDense512 hostDense512x200
  rfl

/-- So the reference's result is the network's value of the arguments. -/
theorem res_eq (c : Dev nD) : Value.res_main_v157 (F := Ideal) m c
    = value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  rw [res_eq_net, hostDenseRelu50000_eq, hostDense50000_eq, hostDenseRelu512_eq, hostDense512x200_eq]

end Cert.ReferenceIdeal.RefValue

end
-- ==== Proof.lean ====
/-
  The certificate: a three-layer graph convolution with a pooled two-layer head, computed by five tiled dense-layer
  launches among host gathers and scatter-adds, against the same network written with the host's matrix products.

  The two programs apply the same host operations to the same arrays everywhere except at the five dense layers
  x ↦ x·W + b (three of them followed by max(·, 0)). There the kernel program stages a block of rows, multiplies it
  into a zero accumulator and adds the bias row, block after block, while the reference multiplies the whole
  array at once. On the extended reals both are, at row r and column c, (∑ k, x(r,k)·W(k,c)) + b(c): a row of the
  product depends on that row of x alone, so the tiling changes nothing, and a change of float format is the
  identity. No other law is needed, and in particular none that would need the inputs finite.

  So both programs end with the result buffer holding one function of the seventeen argument arrays (`Net.value`):
  the kernel program's fold through its nine segments read back to the arguments (Proof/KernelFold.lean over the
  launches' whole-array functions, Proof/KernelBlocks0 … 4), and the reference's composed term
  (Proof/RefValue.lean). The frames are the generated frame certificates and the reference's run; the idealization
  rewrote nothing, so there is nothing to preserve.
-/
import proofs.«154146_j14370960573130_1_alg».proof.Defs
import proofs.«154146_j14370960573130_1_alg».proof.Proof.Gen.Kernel
import proofs.«154146_j14370960573130_1_alg».proof.Proof.Gen.Kernel.Frame
import proofs.«154146_j14370960573130_1_alg».proof.Proof.Gen.KernelIdeal
import proofs.«154146_j14370960573130_1_alg».proof.Proof.Gen.KernelIdeal.Frame
import proofs.«154146_j14370960573130_1_alg».proof.Proof.Gen.ReferenceIdeal
import proofs.«154146_j14370960573130_1_alg».proof.Proof.Gen.ReferenceIdeal.Run
import proofs.«154146_j14370960573130_1_alg».proof.Proof.Gen.Pre_finite_inputs
import proofs.«154146_j14370960573130_1_alg».proof.Proof.KernelRun
import proofs.«154146_j14370960573130_1_alg».proof.Proof.KernelFold
import proofs.«154146_j14370960573130_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no launch: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both results are the network's value of the (agreeing) arguments. -/
theorem algebraic : Cert.algebraic_KernelIdeal_ReferenceIdeal := by
  intro m ρ m' ρ' _ hagree
  refine ⟨fun c => Cert.Net.value (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KernelIdeal.Fold.result_eq m ρ c), (h c).2⟩)
      (Cert.KernelIdeal.Whole.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16⟩ := hagree c
    rw [Cert.ReferenceIdeal.RefValue.res_eq m' c, h0, h1, h2, h3, h4, h5, h6, h7, h8, h9, h10, h11, h12, h13, h14, h15, h16]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
